-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x64 : Shape := ⟨2, ![512, 64]⟩
abbrev S1x1x512x64 : Shape := ⟨4, ![1, 1, 512, 64]⟩
abbrev S32x2048x64 : Shape := ⟨3, ![32, 2048, 64]⟩
abbrev S1x2048x64 : Shape := ⟨3, ![1, 2048, 64]⟩
abbrev S1x1024x64 : Shape := ⟨3, ![1, 1024, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S2x16x2048x64, .f32⟩
  | .hbm, ⟨11, _⟩ => ⟨S32x2048x64, .f32⟩
  | .hbm, ⟨12, _⟩ => ⟨S32x2048x64, .f32⟩
  | .hbm, ⟨13, _⟩ => ⟨S2x16x2048x64, .f32⟩
  | .hbm, ⟨14, _⟩ => ⟨S1x1024, .f32⟩
  | .hbm, ⟨15, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1x16x512x64, .f32⟩
  | .local _ .vmem, ⟨5, _⟩ => ⟨S1x16x512x64, .f32⟩
  | .local _ .vmem, ⟨6, _⟩ => ⟨S1x2048x64, .f32⟩
  | .local _ .vmem, ⟨7, _⟩ => ⟨S1x2048x64, .f32⟩
  | .local _ .vmem, ⟨8, _⟩ => ⟨S1x1024x64, .f32⟩
  | .local _ .vmem, ⟨9, _⟩ => ⟨S1x1024x64, .f32⟩
  | .local _ .vmem, ⟨10, _⟩ => ⟨S1x16x512x64, .f32⟩
  | .local _ .vmem, ⟨11, _⟩ => ⟨S1x16x512x64, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 2], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0_0 : Index := 0#32
  ![0, v2.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S1024x3072_S1024x1024_0_1024 : S1024x3072.Slices ![0, 1024] S1024x1024
  slices_S3072_S1024_1024 : S3072.Slices ![1024] S1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x64 : S512x1024.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  slices_S512x1024_o0_64_S512x64 : S512x1024.Slices ![0, 64] S512x64
  inb_S1x16x512x64_S1x1x512x64_0_1_0_0 : ∀ a, (![0, 1, 0, 0] : Fin 4 → Nat) a + S1x1x512x64.size a ≤ S1x16x512x64.size a
  slices_S512x1024_o0_128_S512x64 : S512x1024.Slices ![0, 128] S512x64
  inb_S1x16x512x64_S1x1x512x64_0_2_0_0 : ∀ a, (![0, 2, 0, 0] : Fin 4 → Nat) a + S1x1x512x64.size a ≤ S1x16x512x64.size a
  slices_S512x1024_o0_192_S512x64 : S512x1024.Slices ![0, 192] S512x64
  inb_S1x16x512x64_S1x1x512x64_0_3_0_0 : ∀ a, (![0, 3, 0, 0] : Fin 4 → Nat) a + S1x1x512x64.size a ≤ S1x16x512x64.size a
  slices_S512x1024_o0_256_S512x64 : S512x1024.Slices ![0, 256] S512x64
  inb_S1x16x512x64_S1x1x512x64_0_4_0_0 : ∀ a, (![0, 4, 0, 0] : Fin 4 → Nat) a + S1x1x512x64.size a ≤ S1x16x512x64.size a
  slices_S512x1024_o0_320_S512x64 : S512x1024.Slices ![0, 320] S512x64
  inb_S1x16x512x64_S1x1x512x64_0_5_0_0 : ∀ a, (![0, 5, 0, 0] : Fin 4 → Nat) a + S1x1x512x64.size a ≤ S1x16x512x64.size a
  slices_S512x1024_o0_384_S512x64 : S512x1024.Slices ![0, 384] S512x64
  inb_S1x16x512x64_S1x1x512x64_0_6_0_0 : ∀ a, (![0, 6, 0, 0] : Fin 4 → Nat) a + S1x1x512x64.size a ≤ S1x16x512x64.size a
  slices_S512x1024_o0_448_S512x64 : S512x1024.Slices ![0, 448] S512x64
  inb_S1x16x512x64_S1x1x512x64_0_7_0_0 : ∀ a, (![0, 7, 0, 0] : Fin 4 → Nat) a + S1x1x512x64.size a ≤ S1x16x512x64.size a
  slices_S512x1024_o0_512_S512x64 : S512x1024.Slices ![0, 512] S512x64
  inb_S1x16x512x64_S1x1x512x64_0_8_0_0 : ∀ a, (![0, 8, 0, 0] : Fin 4 → Nat) a + S1x1x512x64.size a ≤ S1x16x512x64.size a
  slices_S512x1024_o0_576_S512x64 : S512x1024.Slices ![0, 576] S512x64
  inb_S1x16x512x64_S1x1x512x64_0_9_0_0 : ∀ a, (![0, 9, 0, 0] : Fin 4 → Nat) a + S1x1x512x64.size a ≤ S1x16x512x64.size a
  slices_S512x1024_o0_640_S512x64 : S512x1024.Slices ![0, 640] S512x64
  inb_S1x16x512x64_S1x1x512x64_0_10_0_0 : ∀ a, (![0, 10, 0, 0] : Fin 4 → Nat) a + S1x1x512x64.size a ≤ S1x16x512x64.size a
  slices_S512x1024_o0_704_S512x64 : S512x1024.Slices ![0, 704] S512x64
  inb_S1x16x512x64_S1x1x512x64_0_11_0_0 : ∀ a, (![0, 11, 0, 0] : Fin 4 → Nat) a + S1x1x512x64.size a ≤ S1x16x512x64.size a
  slices_S512x1024_o0_768_S512x64 : S512x1024.Slices ![0, 768] S512x64
  inb_S1x16x512x64_S1x1x512x64_0_12_0_0 : ∀ a, (![0, 12, 0, 0] : Fin 4 → Nat) a + S1x1x512x64.size a ≤ S1x16x512x64.size a
  slices_S512x1024_o0_832_S512x64 : S512x1024.Slices ![0, 832] S512x64
  inb_S1x16x512x64_S1x1x512x64_0_13_0_0 : ∀ a, (![0, 13, 0, 0] : Fin 4 → Nat) a + S1x1x512x64.size a ≤ S1x16x512x64.size a
  slices_S512x1024_o0_896_S512x64 : S512x1024.Slices ![0, 896] S512x64
  inb_S1x16x512x64_S1x1x512x64_0_14_0_0 : ∀ a, (![0, 14, 0, 0] : Fin 4 → Nat) a + S1x1x512x64.size a ≤ S1x16x512x64.size a
  slices_S512x1024_o0_960_S512x64 : S512x1024.Slices ![0, 960] S512x64
  inb_S1x16x512x64_S1x1x512x64_0_15_0_0 : ∀ a, (![0, 15, 0, 0] : Fin 4 → Nat) a + S1x1x512x64.size a ≤ S1x16x512x64.size a
  shapeCasts_S2x16x2048x64_S32x2048x64 : S2x16x2048x64.ShapeCasts S32x2048x64
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x64_S1x1024x64_0_0_0 : ∀ a, (![0, 0, 0] : Fin 3 → Nat) a + S1x1024x64.size a ≤ S1x1024x64.size a
  shapeCasts_S1024x64_S1x1024x64 : S1024x64.ShapeCasts S1x1024x64
  shapeCasts_S32x2048x64_S2x16x2048x64 : S32x2048x64.ShapeCasts S2x16x2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .f32 = 32 ∨ (Rect.block (s := S2x16x2048x64) S1x16x512x64.size (cc0_transform_3 i) (hinb0_3 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1x1024x64.size a ≤ S1x2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S32x2048x64.size a
  hwx1_0 : ∀ i : grid1.Coords, EltTy.bits .f32 = 32 ∨ (Rect.block (s := S32x2048x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S32x2048x64.size a
  hwx1_1 : ∀ i : grid1.Coords, EltTy.bits .f32 = 32 ∨ (Rect.block (s := S32x2048x64) S1x1024x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .f32 = 32 ∨ (Rect.block (s := S2x16x2048x64) S1x16x512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v8) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x16x2048x2048, .f32⟩
  | .hbm, ⟨13, _⟩ => ⟨S_, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_1024 : S2x2048x3072.Slices ![0, 0, 1024] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.ValueRun.lean ====
/-
  The idealized kernel's run with its result named.

  @main is six segments: the host operations before each of the three kernel regions, and the regions. The
  buffer contents at the segment boundaries are a fold from the launch memory: after a stretch of host operations
  each written buffer holds its operation's value of what was there; after a region each of its arrays holds
  what the region's write-backs leave and every other buffer is as it was. At the end every buffer that is
  not scoped to a region holds the last boundary's contents — the arguments as launched, and the result buffer
  at the last region's output array. This module states the run with that last fact kept for the result buffer.
-/
import proofs.«108926_j1838246002767_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.ValueRun

end
-- ==== Proof.Spec.lean ====
/-
  The mathematics of the block, as functions of arrays over the extended reals.

  With x : [2, 2048, 1024], a weight W : [1024, 1024] and a bias row B : [1, 1024]:

    kproj x W B (b, h, l, j)  = (∑ d, x(b, l, d) · W(d, 64h + j)) + B(0, 64h + j)

  is the projection written head-major (head h owns the 64 columns 64h … 64h + 63).  For a head-major
  array kv : [32, 2048, 64] (32 = batch × heads, the leading axes merged):

    score kv g q k  = (∑ d, kv(g, q, d) · kv(g, k, d)) · (1/8)
    rowMax kv g q   = max over k of score kv g q k, folded from −∞
    expo kv g q k   = exp (score kv g q k − rowMax kv g q)
    rowSum kv g q   = ∑ k, expo kv g q k
    attn kv (g, q, j) = ∑ k, (expo kv g q k / rowSum kv g q) · kv(g, k, j)

  the softmax of the scaled scores applied to the same array (queries, keys and values are all one projection).
  And for a head-major a : [2, 16, 2048, 64]:

    oproj a W B (b, l, e) = (∑ d, a(b, d / 64, l, d % 64) · W(d, e)) + B(0, e)

  the output projection of the heads laid side by side.  The constants are kept as the float words both
  programs print (−∞ is 0xFF800000, 1/8 is 0x3E000000): the same word on both sides is never evaluated.
-/
import Idealize.ShloMosaic.PureOps.Ideal
import Idealize.ShloMosaic.Lib.ValueIdx

noncomputable section

namespace Cert.Spec

open Idealize.ShloMosaic Idealize.ShloMosaic.ValueIdx

abbrev SX : Shape := ⟨3, ![2, 2048, 1024]⟩
abbrev SW : Shape := ⟨2, ![1024, 1024]⟩
abbrev SB : Shape := ⟨2, ![1, 1024]⟩
abbrev SH : Shape := ⟨4, ![2, 16, 2048, 64]⟩
abbrev SG : Shape := ⟨3, ![32, 2048, 64]⟩

/-- Column 64h + j of the model axis: head h, lane j. -/
def col (h : Fin 16) (j : Fin 64) : Fin 1024 := ⟨64 * h.val + j.val, by omega⟩
/-- The head that owns a column of the model axis. -/
def headOf (d : Fin 1024) : Fin 16 := ⟨d.val / 64, by omega⟩
/-- The lane of a column of the model axis inside its head. -/
def laneOf (d : Fin 1024) : Fin 64 := ⟨d.val % 64, by omega⟩
/-- The merged (batch, head) coordinate 16b + h. -/
def bh (b : Fin 2) (h : Fin 16) : Fin 32 := ⟨16 * b.val + h.val, by omega⟩

theorem col_val (h : Fin 16) (j : Fin 64) : (col h j).val = 64 * h.val + j.val := rfl
theorem headOf_val (d : Fin 1024) : (headOf d).val = d.val / 64 := rfl
theorem laneOf_val (d : Fin 1024) : (laneOf d).val = d.val % 64 := rfl
theorem bh_val (b : Fin 2) (h : Fin 16) : (bh b h).val = 16 * b.val + h.val := rfl
theorem col_head_lane (d : Fin 1024) : col (headOf d) (laneOf d) = d := Fin.ext (by
  rw [col_val, headOf_val, laneOf_val]; omega)

/-- −∞ as both programs print it. -/
abbrev negInf : EReal := Ideal.ofBits .f32 0xFF800000#32
/-- 1/8 as the kernel prints it. -/
abbrev eighth : EReal := Ideal.ofBits .f32 0x3E000000#32

/-- The head-major projection. -/
def kproj (x : SX.Idx → EReal) (W : SW.Idx → EReal) (B : SB.Idx → EReal) : SH.Idx → EReal := fun i =>
  (∑ d : Fin 1024, x (ix3 (i 0) (i 2) d) * W (ix2 d (col (i 1) (i 3)))) + B (ix2 0 (col (i 1) (i 3)))

/-- The scaled score of query row q against key row k in slab g. -/
def score (kv : SG.Idx → EReal) (g : Fin 32) (q k : Fin 2048) : EReal :=
  (∑ d : Fin 64, kv (ix3 g q d) * kv (ix3 g k d)) * eighth

/-- The largest score of a query row, folded from −∞. -/
def rowMax (kv : SG.Idx → EReal) (g : Fin 32) (q : Fin 2048) : EReal :=
  (Finset.univ : Finset (Fin 2048)).fold max negInf (fun k => score kv g q k)

/-- The exponential of a score shifted by its row's maximum. -/
def expo (kv : SG.Idx → EReal) (g : Fin 32) (q k : Fin 2048) : EReal :=
  Ideal.exp (score kv g q k - rowMax kv g q)

/-- The normaliser of a query row. -/
def rowSum (kv : SG.Idx → EReal) (g : Fin 32) (q : Fin 2048) : EReal :=
  ∑ k : Fin 2048, expo kv g q k

/-- Softmax attention of a head-major array with itself. -/
def attn (kv : SG.Idx → EReal) : SG.Idx → EReal := fun i =>
  ∑ k : Fin 2048, Ideal.div (expo kv (i 0) (i 1) k) (rowSum kv (i 0) (i 1)) * kv (ix3 (i 0) k (i 2))

/-- The output projection of the heads laid side by side. -/
def oproj (a : SH.Idx → EReal) (W : SW.Idx → EReal) (B : SB.Idx → EReal) : SX.Idx → EReal := fun i =>
  (∑ d : Fin 1024, a (ix4 (i 0) (headOf d) (i 1) (laneOf d)) * W (ix2 d (i 2))) + B (ix2 0 (i 2))

/-- Merging the two leading axes of a head-major array: (b, h, l, j) ↦ (16b + h, l, j). -/
def merge (a : SH.Idx → EReal) : SG.Idx → EReal := fun i =>
  a (ix4 ⟨(i 0).val / 16, by have h : (i 0).val < 32 := (i 0).isLt; omega⟩ ⟨(i 0).val % 16, by omega⟩ (i 1) (i 2))

/-- Splitting them back. -/
def split (a : SG.Idx → EReal) : SH.Idx → EReal := fun i => a (ix3 (bh (i 0) (i 1)) (i 2) (i 3))

theorem split_merge (a : SH.Idx → EReal) : split (merge a) = a := by
  funext i
  unfold split merge
  rw [eq_ix4 i]
  refine congrArg a (funext fun d => ?_)
  match d with
  | ⟨0, _⟩ => exact Fin.ext (by show (16 * (i 0).val + (i 1).val) / 16 = (i 0).val; have h : (i 1).val < 16 := (i 1).isLt; omega)
  | ⟨1, _⟩ => exact Fin.ext (by show (16 * (i 0).val + (i 1).val) % 16 = (i 1).val; have h : (i 1).val < 16 := (i 1).isLt; omega)
  | ⟨2, _⟩ => rfl
  | ⟨3, _⟩ => rfl

end Cert.Spec

end
-- ==== Proof.KProj.lean ====
/-
  Region 0 of the kernel is the head-major projection.

  The grid is (2, 4): point (b, li) reads rows 512·li … 512·li + 511 of batch b of the input x : [2, 2048, 1024], the
  whole weight W : [1024, 1024] and the whole bias row B : [1, 1024], and writes block (b, 0, li, 0), of shape
  [1, 16, 512, 64], of the output [2, 16, 2048, 64].  The body forms the accumulator

    acc(r, e) = (∑ d, x_block(0, r, d) · W(d, e)) + B(0, e)          (r < 512, e < 1024)

  (the product into a zero accumulator, the bias row broadcast down the rows; the weight's change of float format is
  the identity on the extended reals) and stores, for each head h < 16, the columns 64h … 64h + 63 of acc, reshaped
  [1, 1, 512, 64], through the rectangle at (0, h, 0, 0).  The sixteen rectangles tile the block, so the block ends at

    blockVal(0, h, r, j) = acc(r, 64h + j),

  which at the array index under it, (b, h, 512·li + r, j), is Spec.kproj x W B.  The blocks of the eight points tile
  the output array (row l of batch b is in the block of the point (b, l / 512)), so the array ends at Spec.kproj x W B.
-/
import proofs.«108926_j1838246002767_2_alg».proof.Proof.Gen.KernelIdeal.Frame
import proofs.«108926_j1838246002767_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KProj

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The accumulator at an entry -/

/-- Entry (r, e) of the accumulator: row r of the input block against column e of the weight, plus the bias at e. -/
def acc (x0 : Vec Ideal S1x512x1024 .f32) (x1 : Vec Ideal S1024x1024 .bf16) (x2 : Vec Ideal S1x1024 .f32)
    (r : Fin 512) (e : Fin 1024) : EReal :=
  (∑ d : Fin 1024, x0 (ix3 (0 : Fin 1) r d) * x1 (ix2 d e)) + x2 (ix2 (0 : Fin 1) e)

/-- The product's left operand index at output (i, ·) and contraction index q: row i … -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … column q; -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand's: row q … -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … column of the output. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The body's accumulator (the product into a zero splat, plus the bias row broadcast down the rows) read at (r, e). -/
theorem pay6_apply (x0 : Vec Ideal S1x512x1024 .f32) (x1 : Vec Ideal S1024x1024 .bf16) (x2 : Vec Ideal S1x1024 .f32)
    (r : Fin 512) (e : Fin 1024) : k0_pay6 (F := Ideal) x0 x1 x2 (ix2 r e) = acc x0 x1 x2 r e := by
  unfold k0_pay6 acc
  refine (addf_apply _ _ (ix2 r e)).trans ?_
  refine congrArg₂ (· + ·) ?_ ?_
  · refine (Ideal.matmul_constant_zero_apply dot_S512x1024_S1024x1024_S512x1024_1_0_0_1_n_n none _ _ (ix2 r e)).trans ?_
    rw [← Equiv.sum_comp (contrEquiv1 dot_S512x1024_S1024x1024_S512x1024_1_0_0_1_n_n 1024 rfl rfl).symm]
    refine Finset.sum_congr rfl fun d _ => ?_
    have hd := contrEquiv1_symm_val dot_S512x1024_S1024x1024_S512x1024_1_0_0_1_n_n 1024 rfl rfl d
    have el : dot_S512x1024_S1024x1024_S512x1024_1_0_0_1_n_n.lhsIdx (ix2 r e) ((contrEquiv1 dot_S512x1024_S1024x1024_S512x1024_1_0_0_1_n_n 1024 rfl rfl).symm d) = ix2 r d := funext fun a => Fin.ext (by
      match a with
      | ⟨0, _⟩ => exact lhs_row _ _
      | ⟨1, _⟩ => exact (lhs_col _ _).trans hd)
    have er : dot_S512x1024_S1024x1024_S512x1024_1_0_0_1_n_n.rhsIdx (ix2 r e) ((contrEquiv1 dot_S512x1024_S1024x1024_S512x1024_1_0_0_1_n_n 1024 rfl rfl).symm d) = ix2 d e := funext fun a => Fin.ext (by
      match a with
      | ⟨0, _⟩ => exact (rhs_row _ _).trans hd
      | ⟨1, _⟩ => exact rhs_col _ _)
    rw [el, er]
    refine congrArg₂ (· * ·) ?_ ?_
    · exact shapeCast_1ab_ab_apply x0 shapeCasts_S1x512x1024_S512x1024 r d
    · exact congrFun (shapeCast_self x1 _) (ix2 d e)
  · refine (broadcastTo_1b_ab_apply _ _ r e).trans ?_
    exact congrFun (shapeCast_self x2 _) (ix2 (0 : Fin 1) e)

/-! ## One head's store, and the block the sixteen stores leave -/

/-- What the output block holds at (0, h, r, j): the accumulator at row r, column 64h + j. -/
def blockVal (x0 : Vec Ideal S1x512x1024 .f32) (x1 : Vec Ideal S1024x1024 .bf16) (x2 : Vec Ideal S1x1024 .f32) :
    Vec Ideal S1x16x512x64 .f32 := fun y =>
  acc x0 x1 x2 ⟨(y 2).val, (y 2).isLt⟩
    ⟨64 * (y 1).val + (y 3).val, by
      have h1 : (y 1).val < 16 := (y 1).isLt
      have h3 : (y 3).val < 64 := (y 3).isLt
      omega⟩

/-- Head h's store: the accumulator's 64 columns from o = 64h, reshaped [1, 1, 512, 64], read at a piece index x, is the
    block value at the index under it in the rectangle at (0, h, 0, 0). -/
theorem head_store (x0 : Vec Ideal S1x512x1024 .f32) (x1 : Vec Ideal S1024x1024 .bf16) (x2 : Vec Ideal S1x1024 .f32)
    (hv : Nat) (hh : hv < 16) (o : Nat) (ho : o = 64 * hv)
    (hs : S512x1024.Slices ![0, o] S512x64) (hc : S512x64.ShapeCasts S1x1x512x64)
    (inb : ∀ a, (![0, hv, 0, 0] : Fin 4 → Nat) a + S1x1x512x64.size a ≤ S1x16x512x64.size a)
    (x : S1x1x512x64.Idx) :
    shapeCast S1x1x512x64 (extractStridedSlice S512x64 ![0, o] (k0_pay6 (F := Ideal) x0 x1 x2) hs) hc x
      = blockVal x0 x1 x2 ((Rect.unit (s := S1x16x512x64) ![0, hv, 0, 0] S1x1x512x64.size inb).emb x) := by
  have h0 : (x 0).val < 1 := (x 0).isLt
  have h1 : (x 1).val < 1 := (x 1).isLt
  have h2 : (x 2).val < 512 := (x 2).isLt
  have h3 : (x 3).val < 64 := (x 3).isLt
  refine (shapeCast_apply _ hc x (ix2 (⟨(x 2).val, h2⟩ : Fin 512) (⟨(x 3).val, h3⟩ : Fin 64)) (by
    rw [Shape.rowMajor_val_two, Shape.rowMajor_val_four]
    show (x 2).val * 64 + (x 3).val = (((x 0).val * 1 + (x 1).val) * 512 + (x 2).val) * 64 + (x 3).val
    omega)).trans ?_
  refine (slice2_axis1_apply o _ hs ⟨(x 2).val, h2⟩ ⟨(x 3).val, h3⟩ ⟨o + (x 3).val, by omega⟩ rfl).trans ?_
  refine (pay6_apply x0 x1 x2 _ _).trans ?_
  unfold blockVal
  refine congrArg₂ (acc x0 x1 x2) (Fin.ext ?_) (Fin.ext ?_)
  · show (x 2).val = 0 + 1 * (x 2).val
    omega
  · show o + (x 3).val = 64 * (hv + 1 * (x 1).val) + (0 + 1 * (x 3).val)
    omega

theorem hz3 : (![0, 0, 0] : Fin 3 → Nat) = fun _ => 0 := funext fun a => by fin_cases a <;> rfl
theorem hz2 : (![0, 0] : Fin 2 → Nat) = fun _ => 0 := funext fun a => by fin_cases a <;> rfl

/-- The sixteen stores tile the block by heads; each leaves its head's columns of the accumulator, so together they
    leave the block value. -/
theorem out_eq (x0 : Vec Ideal S1x512x1024 .f32) (x1 : Vec Ideal S1024x1024 .bf16) (x2 : Vec Ideal S1x1024 .f32) :
    out0_3 (F := Ideal) x0 x1 x2 = blockVal x0 x1 x2 := by
  funext y
  unfold out0_3
  simp only [View.ld_unit_zero (S := S1x512x1024) hz3, View.ld_unit_zero (S := S1024x1024) hz2, View.ld_unit_zero (S := S1x1024) hz2]
  refine View.canon_apply_of_pieces (blockVal x0 x1 x2) _ ?_ y (cover0_3 _ _ _ _ _ _ _ _ _ _ _ _ _ _ _ _ y)
  intro pc hpc x
  rcases List.mem_cons.mp hpc with rfl | hpc
  · exact head_store x0 x1 x2 15 (by decide) 960 rfl slices_S512x1024_o0_960_S512x64 shapeCasts_S512x64_S1x1x512x64 inb_S1x16x512x64_S1x1x512x64_0_15_0_0 x
  rcases List.mem_cons.mp hpc with rfl | hpc
  · exact head_store x0 x1 x2 14 (by decide) 896 rfl slices_S512x1024_o0_896_S512x64 shapeCasts_S512x64_S1x1x512x64 inb_S1x16x512x64_S1x1x512x64_0_14_0_0 x
  rcases List.mem_cons.mp hpc with rfl | hpc
  · exact head_store x0 x1 x2 13 (by decide) 832 rfl slices_S512x1024_o0_832_S512x64 shapeCasts_S512x64_S1x1x512x64 inb_S1x16x512x64_S1x1x512x64_0_13_0_0 x
  rcases List.mem_cons.mp hpc with rfl | hpc
  · exact head_store x0 x1 x2 12 (by decide) 768 rfl slices_S512x1024_o0_768_S512x64 shapeCasts_S512x64_S1x1x512x64 inb_S1x16x512x64_S1x1x512x64_0_12_0_0 x
  rcases List.mem_cons.mp hpc with rfl | hpc
  · exact head_store x0 x1 x2 11 (by decide) 704 rfl slices_S512x1024_o0_704_S512x64 shapeCasts_S512x64_S1x1x512x64 inb_S1x16x512x64_S1x1x512x64_0_11_0_0 x
  rcases List.mem_cons.mp hpc with rfl | hpc
  · exact head_store x0 x1 x2 10 (by decide) 640 rfl slices_S512x1024_o0_640_S512x64 shapeCasts_S512x64_S1x1x512x64 inb_S1x16x512x64_S1x1x512x64_0_10_0_0 x
  rcases List.mem_cons.mp hpc with rfl | hpc
  · exact head_store x0 x1 x2 9 (by decide) 576 rfl slices_S512x1024_o0_576_S512x64 shapeCasts_S512x64_S1x1x512x64 inb_S1x16x512x64_S1x1x512x64_0_9_0_0 x
  rcases List.mem_cons.mp hpc with rfl | hpc
  · exact head_store x0 x1 x2 8 (by decide) 512 rfl slices_S512x1024_o0_512_S512x64 shapeCasts_S512x64_S1x1x512x64 inb_S1x16x512x64_S1x1x512x64_0_8_0_0 x
  rcases List.mem_cons.mp hpc with rfl | hpc
  · exact head_store x0 x1 x2 7 (by decide) 448 rfl slices_S512x1024_o0_448_S512x64 shapeCasts_S512x64_S1x1x512x64 inb_S1x16x512x64_S1x1x512x64_0_7_0_0 x
  rcases List.mem_cons.mp hpc with rfl | hpc
  · exact head_store x0 x1 x2 6 (by decide) 384 rfl slices_S512x1024_o0_384_S512x64 shapeCasts_S512x64_S1x1x512x64 inb_S1x16x512x64_S1x1x512x64_0_6_0_0 x
  rcases List.mem_cons.mp hpc with rfl | hpc
  · exact head_store x0 x1 x2 5 (by decide) 320 rfl slices_S512x1024_o0_320_S512x64 shapeCasts_S512x64_S1x1x512x64 inb_S1x16x512x64_S1x1x512x64_0_5_0_0 x
  rcases List.mem_cons.mp hpc with rfl | hpc
  · exact head_store x0 x1 x2 4 (by decide) 256 rfl slices_S512x1024_o0_256_S512x64 shapeCasts_S512x64_S1x1x512x64 inb_S1x16x512x64_S1x1x512x64_0_4_0_0 x
  rcases List.mem_cons.mp hpc with rfl | hpc
  · exact head_store x0 x1 x2 3 (by decide) 192 rfl slices_S512x1024_o0_192_S512x64 shapeCasts_S512x64_S1x1x512x64 inb_S1x16x512x64_S1x1x512x64_0_3_0_0 x
  rcases List.mem_cons.mp hpc with rfl | hpc
  · exact head_store x0 x1 x2 2 (by decide) 128 rfl slices_S512x1024_o0_128_S512x64 shapeCasts_S512x64_S1x1x512x64 inb_S1x16x512x64_S1x1x512x64_0_2_0_0 x
  rcases List.mem_cons.mp hpc with rfl | hpc
  · exact head_store x0 x1 x2 1 (by decide) 64 rfl slices_S512x1024_o0_64_S512x64 shapeCasts_S512x64_S1x1x512x64 inb_S1x16x512x64_S1x1x512x64_0_1_0_0 x
  rcases List.mem_cons.mp hpc with rfl | hpc
  · exact head_store x0 x1 x2 0 (by decide) 0 rfl slices_S512x1024_o0_0_S512x64 shapeCasts_S512x64_S1x1x512x64 inb_S1x16x512x64_S1x1x512x64_0_0_0_0 x
  nomatch hpc

/-! ## From blocks to the array -/

/-- The printed index maps over the grid: the input block moves with the output's batch and row-block indices, the
    weight and the bias are whole, and the output's head and lane block indices are zero. -/
theorem idx_facts : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) ≤ 1 ∧ win0_3.index t (2 : Fin 4) ≤ 3 :=
  (by decide +kernel : ∀ t : Fin grid0.N, _)

/-- Every (batch, row-block) pair is some point's output block. -/
theorem idx_onto : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- The input block at a point, read at y, is the input array at block index × block size + y, axis by axis. -/
theorem blk0_apply (c : Dev nD) (t : Fin cfg0.N) (y : S1x512x1024.Idx) (k : S2x2048x1024.Idx)
    (h0 : (k 0).val = win0_0.index t (0 : Fin 3) * 1 + 1 * (y 0).val)
    (h1 : (k 1).val = win0_0.index t (1 : Fin 3) * 512 + 1 * (y 1).val)
    (h2 : (k 2).val = win0_0.index t (2 : Fin 3) * 1024 + 1 * (y 2).val) :
    (iblk0 V c 0 t : Vec Ideal S1x512x1024 .f32) y = (V c (Pipeline.arrRef spec0 0) : S2x2048x1024.Idx → EReal) k := by
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => exact h0.symm
  | ⟨1, _⟩ => exact h1.symm
  | ⟨2, _⟩ => exact h2.symm

/-- The weight block is the weight. -/
theorem blk1_apply (c : Dev nD) (t : Fin cfg0.N) (y : S1024x1024.Idx) (k : S1024x1024.Idx)
    (h0 : (k 0).val = win0_1.index t (0 : Fin 2) * 1024 + 1 * (y 0).val)
    (h1 : (k 1).val = win0_1.index t (1 : Fin 2) * 1024 + 1 * (y 1).val) :
    (iblk0 V c 1 t : Vec Ideal S1024x1024 .bf16) y = (V c (Pipeline.arrRef spec0 1) : S1024x1024.Idx → EReal) k := by
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => exact h0.symm
  | ⟨1, _⟩ => exact h1.symm

/-- The bias block is the bias row. -/
theorem blk2_apply (c : Dev nD) (t : Fin cfg0.N) (y : S1x1024.Idx) (k : S1x1024.Idx)
    (h0 : (k 0).val = win0_2.index t (0 : Fin 2) * 1 + 1 * (y 0).val)
    (h1 : (k 1).val = win0_2.index t (1 : Fin 2) * 1024 + 1 * (y 1).val) :
    (iblk0 V c 2 t : Vec Ideal S1x1024 .f32) y = (V c (Pipeline.arrRef spec0 2) : S1x1024.Idx → EReal) k := by
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => exact h0.symm
  | ⟨1, _⟩ => exact h1.symm

/-- At a point, the block value of the three input blocks at a block index j is the projection at the array index i that
    sits under j: batch and row from the output's block indices, head and lane as they are. -/
theorem point_eq (c : Dev nD) (t : Fin cfg0.N) (j : S1x16x512x64.Idx) (i : S2x16x2048x64.Idx)
    (hi0 : (i 0).val = win0_3.index t (0 : Fin 4) * 1 + 1 * (j 0).val)
    (hi1 : (i 1).val = win0_3.index t (1 : Fin 4) * 16 + 1 * (j 1).val)
    (hi2 : (i 2).val = win0_3.index t (2 : Fin 4) * 512 + 1 * (j 2).val)
    (hi3 : (i 3).val = win0_3.index t (3 : Fin 4) * 64 + 1 * (j 3).val) :
    blockVal (iblk0 V c 0 t) (iblk0 V c 1 t) (iblk0 V c 2 t) j
      = Cert.Spec.kproj (V c (Pipeline.arrRef spec0 0)) (V c (Pipeline.arrRef spec0 1)) (V c (Pipeline.arrRef spec0 2)) i := by
  obtain ⟨e0, e1, e2, e3, e4, e5, e6, e7, e8, e9, e10⟩ := idx_facts t
  have hj0 : (j 0).val < 1 := (j 0).isLt
  have hj1 : (j 1).val < 16 := (j 1).isLt
  have hj2 : (j 2).val < 512 := (j 2).isLt
  have hj3 : (j 3).val < 64 := (j 3).isLt
  unfold blockVal acc Cert.Spec.kproj
  refine congrArg₂ (· + ·) (Finset.sum_congr rfl fun d _ => congrArg₂ (· * ·) ?_ ?_) ?_
  · refine blk0_apply V c t _ _ ?_ ?_ ?_
    · show (i 0).val = win0_0.index t (0 : Fin 3) * 1 + 1 * 0
      omega
    · show (i 2).val = win0_0.index t (1 : Fin 3) * 512 + 1 * (j 2).val
      omega
    · show d.val = win0_0.index t (2 : Fin 3) * 1024 + 1 * d.val
      omega
  · refine blk1_apply V c t _ _ ?_ ?_
    · show d.val = win0_1.index t (0 : Fin 2) * 1024 + 1 * d.val
      omega
    · show 64 * (i 1).val + (i 3).val = win0_1.index t (1 : Fin 2) * 1024 + 1 * (64 * (j 1).val + (j 3).val)
      omega
  · refine blk2_apply V c t _ _ ?_ ?_
    · show 0 = win0_2.index t (0 : Fin 2) * 1 + 1 * 0
      omega
    · show 64 * (i 1).val + (i 3).val = win0_2.index t (1 : Fin 2) * 1024 + 1 * (64 * (j 1).val + (j 3).val)
      omega

/-- What a point writes back is its block of the head-major projection of the arrays as the region finds them. -/
theorem flushed_eq (c : Dev nD) (t : Fin cfg0.N) :
    (dat0 (F := Ideal) V c).flushed 3 t = ((cfg0.win 3).blk t).view.read (Elt Ideal)
      (Cert.Spec.kproj (V c (Pipeline.arrRef spec0 0)) (V c (Pipeline.arrRef spec0 1)) (V c (Pipeline.arrRef spec0 2))) := by
  show (cfg0.win 3).cut (grid0.coords t) ((dat0 (F := Ideal) V c).after 3 t) = _
  rw [after0_3, out_eq (iblk0 V c 0 t) (iblk0 V c 1 t) (iblk0 V c 2 t)]
  funext j
  show blockVal (iblk0 V c 0 t) (iblk0 V c 1 t) (iblk0 V c 2 t) j
    = Cert.Spec.kproj (V c (Pipeline.arrRef spec0 0)) (V c (Pipeline.arrRef spec0 1)) (V c (Pipeline.arrRef spec0 2)) (((cfg0.win 3).blk t).view.emb j)
  exact point_eq V c t j _ rfl rfl rfl rfl

/-- An index of the output array is in a point's block iff each coordinate is in the block's range on its axis. -/
theorem mem_blk (t : Fin cfg0.N) (i : S2x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v5).slice (win0_3.rect t)).set ↔ _
  rw [View.set_slice_whole, Rect.mem_set_unit]
  exact Iff.rfl

/-- The blocks tile the output: index (b, h, l, j) lies in the block of the point at batch b and row block l / 512. -/
theorem covered (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 16 ≤ (i 1).val ∧ (i 1).val < win0_3.index t (1 : Fin 4) * 16 + 16
    omega
  | ⟨2, _⟩ =>
    show win0_3.index t (2 : Fin 4) * 512 ≤ (i 2).val ∧ (i 2).val < win0_3.index t (2 : Fin 4) * 512 + 512
    omega
  | ⟨3, _⟩ =>
    show win0_3.index t (3 : Fin 4) * 64 ≤ (i 3).val ∧ (i 3).val < win0_3.index t (3 : Fin 4) * 64 + 64
    omega

/-- Region 0 leaves the head-major projection in its output array. -/
theorem final0 (c : Dev nD) :
    (dat0 (F := Ideal) V c).arrAt 3 cfg0.N
      = Cert.Spec.kproj (V c (Pipeline.arrRef spec0 0)) (V c (Pipeline.arrRef spec0 1)) (V c (Pipeline.arrRef spec0 2)) :=
  (dat0 (F := Ideal) V c).arrAt_eq_of_cover 3
    (Cert.Spec.kproj (V c (Pipeline.arrRef spec0 0)) (V c (Pipeline.arrRef spec0 1)) (V c (Pipeline.arrRef spec0 2)))
    (fun t _ => flushed_eq V c t) covered

end Cert.KernelIdeal.KProj

end
-- ==== Proof.Attn.lean ====
/-
  Region 1 of the attention block, read as mathematics.

  The region's grid is 32 × 2.  Point (g, b) fetches the whole slab g of the head-major array kv : [32, 2048, 64]
  (2048 rows of 64 lanes) and writes back rows 1024·b … 1024·b + 1023 of slab g of the output.  Its body takes the
  query rows q = the slab's rows 1024·b … 1024·b + 1023 and the key rows k = all 2048 rows of the slab, and computes

    s(r, k)  = (∑ d, q(r, d) · k(k, d)) · (1/8)          the scaled scores,
    m(r)     = max over k of s(r, k), folded from −∞      the row's maximum,
    e(r, k)  = exp (s(r, k) − m(r)),   l(r) = ∑ k, e(r, k) the exponentials and their row sum,
    o(r, j)  = ∑ k, (e(r, k) / l(r)) · k(k, j)            the output row,

  so the block it stores is the specification's attention of kv with itself, at (g, 1024·b + r, j).  The blocks tile
  the output array (row q of slab g belongs to point (g, q / 1024)), hence the array the region leaves is the
  attention of its input array with itself.  Over the extended reals the narrowing of a matmul's operands to a
  shorter float format is the identity, a matmul into the zero accumulator is the sum over the contracted axis, and
  the two lane reductions are a fold of max and a sum; nothing else is used, and no finiteness is needed.
-/
import proofs.«108926_j1838246002767_2_alg».proof.Proof.Gen.KernelIdeal.Frame
import proofs.«108926_j1838246002767_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Attn

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## What the body leaves in the output's staging buffer -/

theorem hz3 : (![0, 0, 0] : Fin 3 → Nat) = fun _ => 0 := funext fun a => by fin_cases a <;> rfl

/-- The rectangle of the query rows inside the input block, at grid coordinates i. -/
abbrev qrect (i : grid1.Coords) : Rect S1x2048x64 :=
  Rect.unit (s := S1x2048x64) (k1_off1 i) S1x1024x64.size (k1_off1_inb i)

/-- The body's one store covers the output block, and its payload is computed from two loads of the input block: the
    query rows through their rectangle, and the whole block. -/
theorem out_A {F : FTy → Type} [FloatOps F] (c : Dev nD) (i : grid1.Coords)
    (arg2 : Memref sig .tc .vmem S1x2048x64 .f32) (harg2 : arg2.IsWhole)
    (arg3 : Memref sig .tc .vmem S1x1024x64 .f32) (harg3 : arg3.IsWhole) (x0 : Vec F S1x2048x64 .f32) :
    out1_A_1 c i arg2 harg2 arg3 harg3 x0 = k1_pay1 (View.ld x0 (qrect i)) x0 := by
  unfold out1_A_1
  rw [View.read_writes_eq_canon _ _ _ (cover1_A_1 c i arg2 harg2 arg3 harg3 x0)]
  unfold kernelRun1_A
  dsimp only
  rw [View.canon_unit_zero hz3]
  simp only [View.readAt_eq_ld, harg2.read_unread, View.ld_unit_zero (S := S1x2048x64) hz3]

/-! ## The two contractions, read at an index -/

/-- Queries against keys: both operands are contracted over their 64 lanes. -/
abbrev D1 := dot_S1024x64_S2048x64_S1024x2048_1_1_0_0_n_n
/-- Weights against values: the 2048 keys are contracted. -/
abbrev D2 := dot_S1024x2048_S2048x64_S1024x64_1_0_0_1_n_n

theorem lhs1_0 (i : S1024x2048.Idx) (q : D1.contr.Idx) : (D1.lhsIdx i q 0).val = (i 0).val := by
  unfold DotDims.lhsIdx
  rw [dif_neg (show ¬(0 : Fin S1024x64.rank) ∈ D1.lhsBatch by decide),
    dif_pos (show (0 : Fin S1024x64.rank) ∈ D1.lhsNonContracting by decide)]
  rfl
theorem lhs1_1 (i : S1024x2048.Idx) (q : D1.contr.Idx) : (D1.lhsIdx i q 1).val = (q ⟨0, by decide⟩).val :=
  D1.lhsIdx_val_of_single rfl i q
theorem rhs1_0 (i : S1024x2048.Idx) (q : D1.contr.Idx) : (D1.rhsIdx i q 0).val = (i 1).val := by
  unfold DotDims.rhsIdx
  rw [dif_neg (show ¬(0 : Fin S2048x64.rank) ∈ D1.rhsBatch by decide),
    dif_pos (show (0 : Fin S2048x64.rank) ∈ D1.rhsNonContracting by decide)]
  rfl
theorem rhs1_1 (i : S1024x2048.Idx) (q : D1.contr.Idx) : (D1.rhsIdx i q 1).val = (q ⟨0, by decide⟩).val :=
  D1.rhsIdx_val_of_single rfl i q

/-- Entry (r, k) of the product of the query rows with the transposed key rows is the sum over the 64 lanes. -/
theorem mm1_apply (a : FVec Ideal S1024x64 .bf16) (b : FVec Ideal S2048x64 .bf16) (r : Fin 1024) (k : Fin 2048) :
    matmul D1 none a b (constant (F := Ideal) S1024x2048 .f32 0x00000000#32) (ix2 r k)
      = ∑ d : Fin 64, a (ix2 r d) * b (ix2 k d) := by
  show FloatOps.matmul D1 none a b (constant (F := Ideal) S1024x2048 .f32 0x00000000#32) (ix2 r k) = _
  rw [Ideal.matmul_constant_zero_apply, ← Equiv.sum_comp (contrEquiv1 D1 64 rfl rfl).symm]
  refine Finset.sum_congr rfl fun d _ => ?_
  have hd := contrEquiv1_symm_val D1 64 rfl rfl d
  have el : D1.lhsIdx (ix2 r k) ((contrEquiv1 D1 64 rfl rfl).symm d) = ix2 r d := funext fun x => Fin.ext (by
    match x with
    | ⟨0, _⟩ => exact lhs1_0 _ _
    | ⟨1, _⟩ => exact (lhs1_1 _ _).trans hd)
  have er : D1.rhsIdx (ix2 r k) ((contrEquiv1 D1 64 rfl rfl).symm d) = ix2 k d := funext fun x => Fin.ext (by
    match x with
    | ⟨0, _⟩ => exact rhs1_0 _ _
    | ⟨1, _⟩ => exact (rhs1_1 _ _).trans hd)
  rw [el, er]

theorem lhs2_0 (i : S1024x64.Idx) (q : D2.contr.Idx) : (D2.lhsIdx i q 0).val = (i 0).val := by
  unfold DotDims.lhsIdx
  rw [dif_neg (show ¬(0 : Fin S1024x2048.rank) ∈ D2.lhsBatch by decide),
    dif_pos (show (0 : Fin S1024x2048.rank) ∈ D2.lhsNonContracting by decide)]
  rfl
theorem lhs2_1 (i : S1024x64.Idx) (q : D2.contr.Idx) : (D2.lhsIdx i q 1).val = (q ⟨0, by decide⟩).val :=
  D2.lhsIdx_val_of_single rfl i q
theorem rhs2_0 (i : S1024x64.Idx) (q : D2.contr.Idx) : (D2.rhsIdx i q 0).val = (q ⟨0, by decide⟩).val :=
  D2.rhsIdx_val_of_single rfl i q
theorem rhs2_1 (i : S1024x64.Idx) (q : D2.contr.Idx) : (D2.rhsIdx i q 1).val = (i 1).val := by
  unfold DotDims.rhsIdx
  rw [dif_neg (show ¬(1 : Fin S2048x64.rank) ∈ D2.rhsBatch by decide),
    dif_pos (show (1 : Fin S2048x64.rank) ∈ D2.rhsNonContracting by decide)]
  rfl

/-- Entry (r, j) of the product of the weights with the value rows is the sum over the 2048 keys. -/
theorem mm2_apply (a : FVec Ideal S1024x2048 .bf16) (b : FVec Ideal S2048x64 .bf16) (r : Fin 1024) (j : Fin 64) :
    matmul D2 none a b (constant (F := Ideal) S1024x64 .f32 0x00000000#32) (ix2 r j)
      = ∑ k : Fin 2048, a (ix2 r k) * b (ix2 k j) := by
  show FloatOps.matmul D2 none a b (constant (F := Ideal) S1024x64 .f32 0x00000000#32) (ix2 r j) = _
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 r j) ((contrEquiv1 D2 2048 rfl rfl).symm k) = ix2 r k := funext fun x => Fin.ext (by
    match x with
    | ⟨0, _⟩ => exact lhs2_0 _ _
    | ⟨1, _⟩ => exact (lhs2_1 _ _).trans hk)
  have er : D2.rhsIdx (ix2 r j) ((contrEquiv1 D2 2048 rfl rfl).symm k) = ix2 k j := funext fun x => Fin.ext (by
    match x with
    | ⟨0, _⟩ => exact (rhs2_0 _ _).trans hk
    | ⟨1, _⟩ => exact rhs2_1 _ _)
  rw [el, er]
/-! ## The two row reductions and the column they are spread back over -/

/-- Row r with column k put back is entry (r, k). -/
theorem lift_row (h : S1024x2048.Reduces [1] S1024) (r : Fin 1024) (k : Fin 2048) : h.lift (ix1 r) k = ix2 r k :=
  funext fun x => Fin.ext (by
    match x with
    | ⟨0, _⟩ => rfl
    | ⟨1, _⟩ => rfl)

/-- The maximum over a row, folded from −∞. -/
theorem rowmax_apply (s : FVec Ideal S1024x2048 .f32) (h : S1024x2048.Reduces [1] S1024) (hφ : FKind.Formats .f32)
    (hacc : (0xFF800000#32 : BitVec 32) = FKind.maximumf.neutral .f32 hφ) (r : Fin 1024) :
    multiReduction .maximumf [1] S1024 s 0xFF800000#32 h hφ hacc (ix1 r)
      = (Finset.univ : Finset (Fin 2048)).fold max Cert.Spec.negInf (fun k => s (ix2 r k)) := by
  refine (Ideal.multiReduction_maximumf_single s _ h hφ hacc (ix1 r)).trans ?_
  have e : (s ∘ h.lift (ix1 r)) = fun k : Fin 2048 => s (ix2 r k) := funext fun k => congrArg s (lift_row h r k)
  rw [e]
  rfl

/-- The sum over a row. -/
theorem rowsum_apply (s : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 s 0x00000000#32 h hφ hacc (ix1 r) = ∑ k : Fin 2048, s (ix2 r k) := by
  refine (Ideal.multiReduction_add_single s _ h hφ hacc (ix1 r)).trans ?_
  exact Finset.sum_congr rfl fun k _ => congrArg s (lift_row h r k)

/-- A per-row value written as a column and spread over the 2048 columns reads, at (r, k), the row's value. -/
theorem column_apply (v : FVec Ideal S1024 .f32) (h1 : S1024.ShapeCasts S1024x1) (h2 : S1024x1.Broadcasts S1024x2048)
    (r : Fin 1024) (k : Fin 2048) : broadcastTo S1024x2048 (shapeCast S1024x1 v h1) h2 (ix2 r k) = v (ix1 r) := by
  refine (broadcastTo_apply (shapeCast S1024x1 v h1) h2 (ix2 r k) (ix2 r (0 : Fin 1)) fun a => ?_).trans ?_
  · match a with
    | ⟨0, _⟩ => rfl
    | ⟨1, _⟩ => rfl
  · exact shapeCast_apply v h1 (ix2 r (0 : Fin 1)) (ix1 r) (by
      rw [Shape.rowMajor_val_one, Shape.rowMajor_val_two]
      show r.val = r.val * 1 + 0
      omega)

/-! ## The mathematics of one block: 1024 query rows against the 2048 key rows of their slab -/

section Block
variable (q : Vec Ideal S1x1024x64 .f32) (kb : Vec Ideal S1x2048x64 .f32)

/-- The scaled score of query row r of the block against key row k. -/
def bscore (r : Fin 1024) (k : Fin 2048) : EReal :=
  (∑ d : Fin 64, q (ix3 (0 : Fin 1) r d) * kb (ix3 (0 : Fin 1) k d)) * Cert.Spec.eighth
/-- The largest score of query row r, folded from −∞. -/
def bmax (r : Fin 1024) : EReal :=
  (Finset.univ : Finset (Fin 2048)).fold max Cert.Spec.negInf (fun k => bscore q kb r k)
/-- The exponential of a score shifted by its row's maximum. -/
def bexpo (r : Fin 1024) (k : Fin 2048) : EReal := Ideal.exp (bscore q kb r k - bmax q kb r)
/-- The normaliser of query row r. -/
def bsum (r : Fin 1024) : EReal := ∑ k : Fin 2048, bexpo q kb r k
/-- The attention output of query row r at lane j. -/
def battn (r : Fin 1024) (j : Fin 64) : EReal :=
  ∑ k : Fin 2048, Ideal.div (bexpo q kb r k) (bsum q kb r) * kb (ix3 (0 : Fin 1) k j)

/-- The scaled scores as the block computes them: the contraction of the query rows with the key rows over the lanes,
    times 1/8 (the narrowing of the operands is the identity on extended reals). -/
theorem scores_apply (h1 : S1x1024x64.ShapeCasts S1024x64) (h2 : S1x2048x64.ShapeCasts S2048x64)
    (hb : FTy.bits .bf16 < FTy.bits .f32) (r : Fin 1024) (k : Fin 2048) :
    mulf (matmul D1 none (truncf .bf16 (shapeCast S1024x64 q h1) hb) (truncf .bf16 (shapeCast S2048x64 kb h2) hb)
        (constant (F := Ideal) S1024x2048 .f32 0x00000000#32))
      (broadcast S1024x2048 (FloatOps.ofBits (F := Ideal) .f32 0x3E000000#32)) (ix2 r k) = bscore q kb r k := by
  refine (mulf_apply _ _ _).trans ?_
  unfold bscore
  refine congrArg₂ (· * ·) ?_ rfl
  refine (mm1_apply _ _ r k).trans (Finset.sum_congr rfl fun d _ => ?_)
  exact congrArg₂ (· * ·) (shapeCast_1ab_ab_apply q h1 r d) (shapeCast_1ab_ab_apply kb h2 k d)

/-- Scores that are the block's, shifted by their row's maximum and exponentiated, are the block's exponentials. -/
theorem expo_apply (S : FVec Ideal S1024x2048 .f32) (hS : ∀ (r : Fin 1024) (k : Fin 2048), S (ix2 r k) = bscore q kb r k)
    (h : S1024x2048.Reduces [1] S1024) (hφ : FKind.Formats .f32)
    (hacc : (0xFF800000#32 : BitVec 32) = FKind.maximumf.neutral .f32 hφ)
    (h1 : S1024.ShapeCasts S1024x1) (h2 : S1024x1.Broadcasts S1024x2048) (r : Fin 1024) (k : Fin 2048) :
    exp (subf S (broadcastTo S1024x2048 (shapeCast S1024x1 (multiReduction .maximumf [1] S1024 S 0xFF800000#32 h hφ hacc) h1) h2))
      (ix2 r k) = bexpo q kb r k := by
  show Ideal.exp (S (ix2 r k) - broadcastTo S1024x2048 (shapeCast S1024x1 (multiReduction .maximumf [1] S1024 S 0xFF800000#32 h hφ hacc) h1) h2 (ix2 r k)) = _
  unfold bexpo bmax
  refine congrArg Ideal.exp (congrArg₂ (· - ·) (hS r k) ?_)
  refine (column_apply _ h1 h2 r k).trans ((rowmax_apply S h hφ hacc r).trans ?_)
  exact congrArg (fun f => (Finset.univ : Finset (Fin 2048)).fold max Cert.Spec.negInf f) (funext fun k' => hS r k')

/-- Exponentials that are the block's, summed along their row and spread back, are the block's normalisers. -/
theorem sum_apply (E : FVec Ideal S1024x2048 .f32) (hE : ∀ (r : Fin 1024) (k : Fin 2048), E (ix2 r k) = bexpo q kb r k)
    (h : S1024x2048.Reduces [1] S1024) (hφ : FKind.Formats .f32)
    (hacc : (0x00000000#32 : BitVec 32) = FKind.add.neutral .f32 hφ)
    (h1 : S1024.ShapeCasts S1024x1) (h2 : S1024x1.Broadcasts S1024x2048) (r : Fin 1024) (k : Fin 2048) :
    broadcastTo S1024x2048 (shapeCast S1024x1 (multiReduction .add [1] S1024 E 0x00000000#32 h hφ hacc) h1) h2 (ix2 r k)
      = bsum q kb r := by
  unfold bsum
  refine (column_apply _ h1 h2 r k).trans ((rowsum_apply E h hφ hacc r).trans ?_)
  exact Finset.sum_congr rfl fun k' _ => hE r k'

/-- What the block stores, at row r and lane j: the attention output of that query row. -/
theorem pay_apply (r : Fin 1024) (j : Fin 64) : k1_pay1 q kb (ix3 (0 : Fin 1) r j) = battn q kb r j := by
  unfold k1_pay1
  refine (shapeCast_ab_1ab_apply _ _ (0 : Fin 1) r j).trans ?_
  refine (mm2_apply _ _ r j).trans ?_
  unfold battn
  refine Finset.sum_congr rfl fun k _ => ?_
  refine congrArg₂ (· * ·) ?_ (shapeCast_1ab_ab_apply kb _ k j)
  refine (divf_apply _ _ (ix2 r k)).trans ?_
  have hS := fun (r : Fin 1024) (k : Fin 2048) =>
    scores_apply q kb shapeCasts_S1x1024x64_S1024x64 shapeCasts_S1x2048x64_S2048x64 bitsLt_bf16_f32 r k
  have hE := fun (r : Fin 1024) (k : Fin 2048) =>
    expo_apply q kb _ hS reduces_S1024x2048_S1024 (.inl rfl) rfl shapeCasts_S1024_S1024x1 broadcasts_S1024x1_S1024x2048 r k
  exact congrArg₂ Ideal.div (hE r k)
    (sum_apply q kb _ hE reduces_S1024x2048_S1024 (.inl rfl) rfl shapeCasts_S1024_S1024x1 broadcasts_S1024x1_S1024x2048 r k)

end Block

/-! ## From the block to the slab -/

/-- Row o + r of a slab of 2048 rows, for a block of 1024 rows that starts at row o. -/
def rowAt (o : Nat) (ho : o + 1024 ≤ 2048) (r : Fin 1024) : Fin 2048 := ⟨o + r.val, by omega⟩

/-- When the block's query rows are rows o … o + 1023 of slab g of an array and its key rows are all of that slab's, what
    the block stores at (r, j) is the attention of the array with itself at (g, o + r, j): every score, maximum,
    exponential and normaliser of the block is the array's. -/
theorem block_apply (kv : S32x2048x64.Idx → EReal) (q : Vec Ideal S1x1024x64 .f32) (kb : Vec Ideal S1x2048x64 .f32)
    (g : Fin 32) (o : Nat) (ho : o + 1024 ≤ 2048)
    (hq : ∀ (r : Fin 1024) (d : Fin 64), q (ix3 (0 : Fin 1) r d) = kv (ix3 g (rowAt o ho r) d))
    (hk : ∀ (k : Fin 2048) (d : Fin 64), kb (ix3 (0 : Fin 1) k d) = kv (ix3 g k d)) (r : Fin 1024) (j : Fin 64) :
    k1_pay1 q kb (ix3 (0 : Fin 1) r j) = Cert.Spec.attn kv (ix3 g (rowAt o ho r) j) := by
  have hs : ∀ (r : Fin 1024) (k : Fin 2048), bscore q kb r k = Cert.Spec.score kv g (rowAt o ho r) k := fun r k => by
    unfold bscore Cert.Spec.score
    exact congrArg₂ (· * ·) (Finset.sum_congr rfl fun d _ => by rw [hq r d, hk k d]) rfl
  have hm : ∀ r : Fin 1024, bmax q kb r = Cert.Spec.rowMax kv g (rowAt o ho r) := fun r => by
    unfold bmax Cert.Spec.rowMax
    exact congrArg (fun f => (Finset.univ : Finset (Fin 2048)).fold max Cert.Spec.negInf f) (funext fun k => hs r k)
  have he : ∀ (r : Fin 1024) (k : Fin 2048), bexpo q kb r k = Cert.Spec.expo kv g (rowAt o ho r) k := fun r k => by
    unfold bexpo Cert.Spec.expo
    rw [hs r k, hm r]
  have hsum : ∀ r : Fin 1024, bsum q kb r = Cert.Spec.rowSum kv g (rowAt o ho r) := fun r => by
    unfold bsum Cert.Spec.rowSum
    exact Finset.sum_congr rfl fun k _ => he r k
  rw [pay_apply]
  unfold battn Cert.Spec.attn
  show _ = ∑ k : Fin 2048, Ideal.div (Cert.Spec.expo kv g (rowAt o ho r) k) (Cert.Spec.rowSum kv g (rowAt o ho r)) * kv (ix3 g k j)
  exact Finset.sum_congr rfl fun k _ => by rw [he r k, hsum r, hk k j]

/-! ## From the blocks to the array -/

/-- The index maps over the grid: the input block is the whole slab named by the output block's first
    coordinate, and the query rows start at 1024 times the output block's second coordinate. -/
theorem idx_facts : ∀ t : Fin cfg1.N,
    win1_0.index t (0 : Fin 3) = win1_1.index t (0 : Fin 3) ∧ win1_0.index t (1 : Fin 3) = 0
    ∧ win1_0.index t (2 : Fin 3) = 0
    ∧ win1_1.index t (0 : Fin 3) < 32 ∧ win1_1.index t (1 : Fin 3) < 2 ∧ win1_1.index t (2 : Fin 3) = 0
    ∧ k1_off1 (grid1.coords t) (0 : Fin 3) = 0
    ∧ k1_off1 (grid1.coords t) (1 : Fin 3) = 1024 * win1_1.index t (1 : Fin 3)
    ∧ k1_off1 (grid1.coords t) (2 : Fin 3) = 0 :=
  (by decide +kernel : ∀ t : Fin grid1.N, _)

/-- Every (slab, half) pair is some point's output block. -/
theorem idx_onto : ∀ (g : Fin 32) (b : Fin 2), ∃ t : Fin cfg1.N, win1_1.index t = ![g.val, b.val, 0] :=
  (by decide +kernel : ∀ (g : Fin 32) (b : Fin 2), ∃ t : Fin grid1.N, win1_1.index t = ![g.val, b.val, 0])

/-- What point t writes back is its block of the attention of the input array with itself. -/
theorem flushed_eq (c : Dev nD) (t : Fin cfg1.N) :
    (dat1 (F := Ideal) V c).flushed 1 t
      = ((cfg1.win 1).blk t).view.read (Elt Ideal) (Cert.Spec.attn (V c (Pipeline.arrRef spec1 0))) := by
  show (cfg1.win 1).cut (grid1.coords t) ((dat1 (F := Ideal) V c).after 1 t) = _
  rw [after1_1]
  unfold outsAt1
  rw [out_A (F := Ideal) c (grid1.coords t) (ms1_0 t) (hs1_0 t) (ms1_1 t) (hs1_1 t) (iblk1 V c 0 t)]
  obtain ⟨e00, e01, e02, b0, b1, e12, o0, o1, o2⟩ := idx_facts t
  funext y
  have hy0 : (y 0).val < 1 := (y 0).isLt
  have hy1 : (y 1).val < 1024 := (y 1).isLt
  have hy2 : (y 2).val < 64 := (y 2).isLt
  have ho : 1024 * win1_1.index t (1 : Fin 3) + 1024 ≤ 2048 := by omega
  have hk : ∀ (k : Fin 2048) (d : Fin 64), (iblk1 V c 0 t : Vec Ideal S1x2048x64 .f32) (ix3 (0 : Fin 1) k d)
      = V c (Pipeline.arrRef spec1 0) (ix3 (⟨win1_1.index t (0 : Fin 3), b0⟩ : Fin 32) k d) := fun k d => by
    show V c (Pipeline.arrRef spec1 0) (((cfg1.win 0).blk t).view.emb (ix3 (0 : Fin 1) k d)) = _
    refine congrArg (V c (Pipeline.arrRef spec1 0)) (funext fun a => Fin.ext ?_)
    match a with
    | ⟨0, _⟩ => show win1_0.index t (0 : Fin 3) * 1 + 1 * 0 = win1_1.index t (0 : Fin 3); omega
    | ⟨1, _⟩ => show win1_0.index t (1 : Fin 3) * 2048 + 1 * k.val = k.val; omega
    | ⟨2, _⟩ => show win1_0.index t (2 : Fin 3) * 64 + 1 * d.val = d.val; omega
  have hq : ∀ (r : Fin 1024) (d : Fin 64),
      View.ld (iblk1 V c 0 t : Vec Ideal S1x2048x64 .f32) (qrect (grid1.coords t)) (ix3 (0 : Fin 1) r d)
        = V c (Pipeline.arrRef spec1 0) (ix3 (⟨win1_1.index t (0 : Fin 3), b0⟩ : Fin 32)
            (rowAt (1024 * win1_1.index t (1 : Fin 3)) ho r) d) := fun r d => by
    show V c (Pipeline.arrRef spec1 0)
      (((cfg1.win 0).blk t).view.emb ((qrect (grid1.coords t)).idx (ix3 (0 : Fin 1) r d))) = _
    refine congrArg (V c (Pipeline.arrRef spec1 0)) (funext fun a => Fin.ext ?_)
    match a with
    | ⟨0, _⟩ =>
      show win1_0.index t (0 : Fin 3) * 1 + 1 * (k1_off1 (grid1.coords t) (0 : Fin 3) + 1 * 0) = win1_1.index t (0 : Fin 3)
      omega
    | ⟨1, _⟩ =>
      show win1_0.index t (1 : Fin 3) * 2048 + 1 * (k1_off1 (grid1.coords t) (1 : Fin 3) + 1 * r.val)
        = 1024 * win1_1.index t (1 : Fin 3) + r.val
      omega
    | ⟨2, _⟩ =>
      show win1_0.index t (2 : Fin 3) * 64 + 1 * (k1_off1 (grid1.coords t) (2 : Fin 3) + 1 * d.val) = d.val
      omega
  have ex : win1_1.xinj (grid1.coords t) y
      = ix3 (0 : Fin 1) (⟨(y 1).val, hy1⟩ : Fin 1024) (⟨(y 2).val, hy2⟩ : Fin 64) := funext fun a => Fin.ext (by
    match a with
    | ⟨0, _⟩ => show (y 0).val = 0; omega
    | ⟨1, _⟩ => rfl
    | ⟨2, _⟩ => rfl)
  show k1_pay1 (View.ld (iblk1 V c 0 t : Vec Ideal S1x2048x64 .f32) (qrect (grid1.coords t))) (iblk1 V c 0 t)
      (win1_1.xinj (grid1.coords t) y)
    = Cert.Spec.attn (V c (Pipeline.arrRef spec1 0)) (((cfg1.win 1).blk t).view.emb y)
  rw [ex]
  refine (block_apply (V c (Pipeline.arrRef spec1 0))
    (View.ld (iblk1 V c 0 t : Vec Ideal S1x2048x64 .f32) (qrect (grid1.coords t))) (iblk1 V c 0 t)
    (⟨win1_1.index t (0 : Fin 3), b0⟩ : Fin 32) (1024 * win1_1.index t (1 : Fin 3)) ho hq hk
    (⟨(y 1).val, hy1⟩ : Fin 1024) (⟨(y 2).val, hy2⟩ : Fin 64)).trans ?_
  refine congrArg (Cert.Spec.attn (V c (Pipeline.arrRef spec1 0))) (funext fun a => Fin.ext ?_)
  match a with
  | ⟨0, _⟩ => show win1_1.index t (0 : Fin 3) = win1_1.index t (0 : Fin 3) * 1 + 1 * (y 0).val; omega
  | ⟨1, _⟩ =>
    show 1024 * win1_1.index t (1 : Fin 3) + (y 1).val = win1_1.index t (1 : Fin 3) * 1024 + 1 * (y 1).val
    omega
  | ⟨2, _⟩ => show (y 2).val = win1_1.index t (2 : Fin 3) * 64 + 1 * (y 2).val; omega

/-- An index of the output array is in point t's block iff each coordinate is in the block's range on its axis. -/
theorem mem_blk (t : Fin cfg1.N) (i : S32x2048x64.Idx) :
    i ∈ ((cfg1.win 1).blk t).view.set ↔ ∀ a : Fin 3, win1_1.index t a * S1x1024x64.size a ≤ (i a).val
      ∧ (i a).val < win1_1.index t a * S1x1024x64.size a + S1x1024x64.size a := by
  show i ∈ ((View.whole main_v7).slice (win1_1.rect t)).set ↔ _
  rw [View.set_slice_whole, Rect.mem_set_unit]
  exact Iff.rfl

/-- The blocks tile the output: row q of slab g lies in the block of the point whose output block is (g, q / 1024). -/
theorem cover (i : S32x2048x64.Idx) :
    ∃ t : Fin cfg1.N, (cfg1.win 1).flush t = true ∧ i ∈ ((cfg1.win 1).blk t).view.set := by
  have h0 : (i 0).val < 32 := (i 0).isLt
  have h1 : (i 1).val < 2048 := (i 1).isLt
  have h2 : (i 2).val < 64 := (i 2).isLt
  obtain ⟨t, ht⟩ := idx_onto ⟨(i 0).val, h0⟩ ⟨(i 1).val / 1024, by omega⟩
  have q0 : win1_1.index t (0 : Fin 3) = (i 0).val := congrFun ht 0
  have q1 : win1_1.index t (1 : Fin 3) = (i 1).val / 1024 := congrFun ht 1
  have q2 : win1_1.index t (2 : Fin 3) = 0 := congrFun ht 2
  refine ⟨t, flush1_1 t, ?_⟩
  rw [mem_blk]
  intro a
  match a with
  | ⟨0, _⟩ =>
    show win1_1.index t (0 : Fin 3) * 1 ≤ (i 0).val ∧ (i 0).val < win1_1.index t (0 : Fin 3) * 1 + 1
    omega
  | ⟨1, _⟩ =>
    show win1_1.index t (1 : Fin 3) * 1024 ≤ (i 1).val ∧ (i 1).val < win1_1.index t (1 : Fin 3) * 1024 + 1024
    omega
  | ⟨2, _⟩ =>
    show win1_1.index t (2 : Fin 3) * 64 ≤ (i 2).val ∧ (i 2).val < win1_1.index t (2 : Fin 3) * 64 + 64
    omega

/-- Region 1 leaves the softmax attention of its input array with itself in its output array. -/
theorem final1 (c : Dev nD) :
    (dat1 (F := Ideal) V c).arrAt 1 cfg1.N = Cert.Spec.attn (V c (Pipeline.arrRef spec1 0)) :=
  (dat1 (F := Ideal) V c).arrAt_eq_of_cover 1 (Cert.Spec.attn (V c (Pipeline.arrRef spec1 0)))
    (fun t _ => flushed_eq V c t) cover

end Cert.KernelIdeal.Attn

end
-- ==== Proof.OProj.lean ====
import proofs.«108926_j1838246002767_2_alg».proof.Proof.Gen.KernelIdeal.Frame
import proofs.«108926_j1838246002767_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OProj

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Head `h` of a head-major block [1, 16, 512, 64], as a [512, 64] matrix. -/
def headOf16 (x0 : Vec Ideal S1x16x512x64 .f32) (h : Fin 16) : S512x64.Idx → Ideal .bf16 :=
  fun i => x0 (ix4 0 h (i 0) (i 1))

/-- The rectangle of head `h` inside the block is in bounds. -/
theorem head_inb (h : Fin 16) : ∀ a, (![0, h.val, 0, 0] : Fin 4 → Nat) a + S1x1x512x64.size a ≤ S1x16x512x64.size a := by
  intro a
  have hh : h.val < 16 := h.isLt
  match a with
  | ⟨0, _⟩ => show 0 + 1 ≤ 1; omega
  | ⟨1, _⟩ => show h.val + 1 ≤ 16; omega
  | ⟨2, _⟩ => show 0 + 512 ≤ 512; omega
  | ⟨3, _⟩ => show 0 + 64 ≤ 64; omega

/-- The piece loaded through head `h`'s rectangle, with its two unit axes dropped and its float format
    changed (the identity on extended reals), is head `h`. -/
theorem head_piece (x0 : Vec Ideal S1x16x512x64 .f32) (h : Fin 16) (inb : ∀ a, (![0, h.val, 0, 0] : Fin 4 → Nat) a + S1x1x512x64.size a ≤ S1x16x512x64.size a) :
    (truncf (F := Ideal) .bf16 (shapeCast S512x64 (View.ld x0 (Rect.unit (s := S1x16x512x64) ![0, h.val, 0, 0] S1x1x512x64.size inb)) shapeCasts_S1x1x512x64_S512x64) bitsLt_bf16_f32 : FVec Ideal S512x64 .bf16)
      = headOf16 x0 h := by
  funext i
  obtain ⟨r, j, rfl⟩ : ∃ (r : Fin 512) (j : Fin 64), i = ix2 r j := ⟨i 0, i 1, eq_ix2 i⟩
  show shapeCast S512x64 (View.ld x0 (Rect.unit (s := S1x16x512x64) ![0, h.val, 0, 0] S1x1x512x64.size inb)) shapeCasts_S1x1x512x64_S512x64 (ix2 r j) = _
  refine (shapeCast_apply _ shapeCasts_S1x1x512x64_S512x64 (ix2 r j) (ix4 0 0 r j) ?_).trans ?_
  · rw [Shape.rowMajor_val_four, Shape.rowMajor_val_two]
    show ((0 * 1 + 0) * 512 + r.val) * 64 + j.val = r.val * 64 + j.val
    omega
  · show x0 _ = x0 _
    refine congrArg x0 (funext fun a => Fin.ext ?_)
    match a with
    | ⟨0, _⟩ => rfl
    | ⟨1, _⟩ => show h.val + 1 * 0 = h.val; omega
    | ⟨2, _⟩ => show 0 + 1 * r.val = r.val; omega
    | ⟨3, _⟩ => show 0 + 1 * j.val = j.val; omega

/-- Equal lists of pieces concatenate alike, whatever the evidence. -/
theorem concatenate_congr {α : Type} (t : Shape) (a : Fin t.rank) {xs ys : List ((s : Shape) × (s.Idx → α))} (e : xs = ys)
    (hx : Shape.Concatenates (xs.map (·.1)) t a) (hy : Shape.Concatenates (ys.map (·.1)) t a) :
    concatenate t a xs hx = concatenate t a ys hy := by
  subst e; rfl

/-- The left operand of the product: the sixteen heads of the block laid side by side. -/
def sideBySide (x0 : Vec Ideal S1x16x512x64 .f32) : FVec Ideal S512x1024 .bf16 :=
  concatenate S512x1024 1 (List.ofFn fun h : Fin 16 => (⟨S512x64, headOf16 x0 h⟩ : (s : Shape) × (s.Idx → Ideal .bf16))) concatenates_S512x64_S512x64_S512x64_S512x64_S512x64_S512x64_S512x64_S512x64_S512x64_S512x64_S512x64_S512x64_S512x64_S512x64_S512x64_S512x64_S512x1024_d1

theorem lhs_eq (x0 : Vec Ideal S1x16x512x64 .f32) :
    k2_pay10 (F := Ideal) (k2_pay2 (View.ld x0 r2_0)) (k2_pay3 (View.ld x0 r2_1)) (k2_pay4 (View.ld x0 r2_2)) (k2_pay5 (View.ld x0 r2_3)) (k2_pay6 (View.ld x0 r2_4)) (k2_pay7 (View.ld x0 r2_5)) (k2_pay8 (View.ld x0 r2_6)) (k2_pay9 (View.ld x0 r2_7)) (View.ld x0 r2_8) (View.ld x0 r2_9) (View.ld x0 r2_10) (View.ld x0 r2_11) (View.ld x0 r2_12) (View.ld x0 r2_13) (View.ld x0 r2_14) (View.ld x0 r2_15) = sideBySide x0 := by
  unfold k2_pay10 k2_pay2 k2_pay3 k2_pay4 k2_pay5 k2_pay6 k2_pay7 k2_pay8 k2_pay9 sideBySide
  refine concatenate_congr _ _ ?_ _ _
  dsimp only
  have e0 : (truncf (F := Ideal) .bf16 (shapeCast S512x64 (View.ld x0 r2_0) shapeCasts_S1x1x512x64_S512x64) bitsLt_bf16_f32 : FVec Ideal S512x64 .bf16) = headOf16 x0 0 := head_piece x0 0 _
  have e1 : (truncf (F := Ideal) .bf16 (shapeCast S512x64 (View.ld x0 r2_1) shapeCasts_S1x1x512x64_S512x64) bitsLt_bf16_f32 : FVec Ideal S512x64 .bf16) = headOf16 x0 1 := head_piece x0 1 _
  have e2 : (truncf (F := Ideal) .bf16 (shapeCast S512x64 (View.ld x0 r2_2) shapeCasts_S1x1x512x64_S512x64) bitsLt_bf16_f32 : FVec Ideal S512x64 .bf16) = headOf16 x0 2 := head_piece x0 2 _
  have e3 : (truncf (F := Ideal) .bf16 (shapeCast S512x64 (View.ld x0 r2_3) shapeCasts_S1x1x512x64_S512x64) bitsLt_bf16_f32 : FVec Ideal S512x64 .bf16) = headOf16 x0 3 := head_piece x0 3 _
  have e4 : (truncf (F := Ideal) .bf16 (shapeCast S512x64 (View.ld x0 r2_4) shapeCasts_S1x1x512x64_S512x64) bitsLt_bf16_f32 : FVec Ideal S512x64 .bf16) = headOf16 x0 4 := head_piece x0 4 _
  have e5 : (truncf (F := Ideal) .bf16 (shapeCast S512x64 (View.ld x0 r2_5) shapeCasts_S1x1x512x64_S512x64) bitsLt_bf16_f32 : FVec Ideal S512x64 .bf16) = headOf16 x0 5 := head_piece x0 5 _
  have e6 : (truncf (F := Ideal) .bf16 (shapeCast S512x64 (View.ld x0 r2_6) shapeCasts_S1x1x512x64_S512x64) bitsLt_bf16_f32 : FVec Ideal S512x64 .bf16) = headOf16 x0 6 := head_piece x0 6 _
  have e7 : (truncf (F := Ideal) .bf16 (shapeCast S512x64 (View.ld x0 r2_7) shapeCasts_S1x1x512x64_S512x64) bitsLt_bf16_f32 : FVec Ideal S512x64 .bf16) = headOf16 x0 7 := head_piece x0 7 _
  have e8 : (truncf (F := Ideal) .bf16 (shapeCast S512x64 (View.ld x0 r2_8) shapeCasts_S1x1x512x64_S512x64) bitsLt_bf16_f32 : FVec Ideal S512x64 .bf16) = headOf16 x0 8 := head_piece x0 8 _
  have e9 : (truncf (F := Ideal) .bf16 (shapeCast S512x64 (View.ld x0 r2_9) shapeCasts_S1x1x512x64_S512x64) bitsLt_bf16_f32 : FVec Ideal S512x64 .bf16) = headOf16 x0 9 := head_piece x0 9 _
  have e10 : (truncf (F := Ideal) .bf16 (shapeCast S512x64 (View.ld x0 r2_10) shapeCasts_S1x1x512x64_S512x64) bitsLt_bf16_f32 : FVec Ideal S512x64 .bf16) = headOf16 x0 10 := head_piece x0 10 _
  have e11 : (truncf (F := Ideal) .bf16 (shapeCast S512x64 (View.ld x0 r2_11) shapeCasts_S1x1x512x64_S512x64) bitsLt_bf16_f32 : FVec Ideal S512x64 .bf16) = headOf16 x0 11 := head_piece x0 11 _
  have e12 : (truncf (F := Ideal) .bf16 (shapeCast S512x64 (View.ld x0 r2_12) shapeCasts_S1x1x512x64_S512x64) bitsLt_bf16_f32 : FVec Ideal S512x64 .bf16) = headOf16 x0 12 := head_piece x0 12 _
  have e13 : (truncf (F := Ideal) .bf16 (shapeCast S512x64 (View.ld x0 r2_13) shapeCasts_S1x1x512x64_S512x64) bitsLt_bf16_f32 : FVec Ideal S512x64 .bf16) = headOf16 x0 13 := head_piece x0 13 _
  have e14 : (truncf (F := Ideal) .bf16 (shapeCast S512x64 (View.ld x0 r2_14) shapeCasts_S1x1x512x64_S512x64) bitsLt_bf16_f32 : FVec Ideal S512x64 .bf16) = headOf16 x0 14 := head_piece x0 14 _
  have e15 : (truncf (F := Ideal) .bf16 (shapeCast S512x64 (View.ld x0 r2_15) shapeCasts_S1x1x512x64_S512x64) bitsLt_bf16_f32 : FVec Ideal S512x64 .bf16) = headOf16 x0 15 := head_piece x0 15 _
  rw [e0, e1, e2, e3, e4, e5, e6, e7, e8, e9, e10, e11, e12, e13, e14, e15]
  rfl

open Cert.Spec (headOf laneOf) in
/-- Column `d` of the side-by-side matrix is lane `d % 64` of head `d / 64`. -/
theorem sideBySide_apply (x0 : Vec Ideal S1x16x512x64 .f32) (r : Fin 512) (d : Fin 1024) :
    sideBySide x0 (ix2 r d) = x0 (ix4 0 (headOf d) r (laneOf d)) := by
  unfold sideBySide
  refine (concatenate_ofFn_apply (t := S512x1024) (s₁ := S512x64) (1 : Fin 2) (headOf16 x0) concatenates_S512x64_S512x64_S512x64_S512x64_S512x64_S512x64_S512x64_S512x64_S512x64_S512x64_S512x64_S512x64_S512x64_S512x64_S512x64_S512x64_S512x1024_d1 rfl 64 rfl
    (ix2 r d) (headOf d) rfl (ix2 r (laneOf d)) rfl ?_).trans rfl
  intro b hb
  match b with
  | ⟨0, _⟩ => rfl
  | ⟨1, _⟩ => exact absurd rfl hb

theorem hz2 : (![0, 0] : Fin 2 → Nat) = fun _ => 0 := funext fun a => by fin_cases a <;> rfl
theorem hz3 : (![0, 0, 0] : Fin 3 → Nat) = fun _ => 0 := funext fun a => by fin_cases a <;> rfl

/-- The left operand's index at output index `i` and contraction index `q`: row `i 0`, column `q`. -/
theorem lhs_row (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_col (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's: row `q`, column `i 1`. -/
theorem rhs_row (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator, read at (r, e): the sum over the contracted axis. -/
theorem matmul_apply_rc (L : FVec Ideal S512x1024 .bf16) (R : FVec Ideal S1024x1024 .bf16) (r : Fin 512) (e : Fin 1024) :
    matmul dot_S512x1024_S1024x1024_S512x1024_1_0_0_1_n_n none L R (constant S512x1024 .f32 0x00000000#32) (ix2 r e)
      = ∑ d : Fin 1024, L (ix2 r d) * R (ix2 d e) := by
  refine (Ideal.matmul_constant_zero_apply dot_S512x1024_S1024x1024_S512x1024_1_0_0_1_n_n none L R (ix2 r e)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
    match a with
    | ⟨0, _⟩ => exact (rhs_row _ _).trans hk
    | ⟨1, _⟩ => exact rhs_col _ _)
  rw [el, er]

open Cert.Spec (headOf laneOf) in
/-- What a point leaves in its output block at (0, r, e): row `r` of the side-by-side heads against column `e` of the
    weight, plus the bias at `e`. -/
theorem out2_3_apply (x0 : Vec Ideal S1x16x512x64 .f32) (x1 : Vec Ideal S1024x1024 .bf16) (x2 : Vec Ideal S1x1024 .f32)
    (r : Fin 512) (e : Fin 1024) :
    out2_3 (F := Ideal) x0 x1 x2 (ix3 0 r e)
      = (∑ d : Fin 1024, x0 (ix4 0 (headOf d) r (laneOf d)) * x1 (ix2 d e)) + x2 (ix2 0 e) := by
  unfold out2_3
  rw [View.canon_unit_zero hz3, lhs_eq]
  unfold k2_pay1 k2_pay11
  dsimp only
  refine (shapeCast_apply _ shapeCasts_S512x1024_S1x512x1024 (ix3 0 r e) (ix2 r e) ?_).trans ?_
  · rw [Shape.rowMajor_val_two, Shape.rowMajor_val_three]
    show r.val * 1024 + e.val = (0 * 512 + r.val) * 1024 + e.val
    omega
  simp only [View.ld_unit_zero (S := S1024x1024) hz2, View.ld_unit_zero (S := S1x1024) hz2, shapeCast_self]
  show matmul dot_S512x1024_S1024x1024_S512x1024_1_0_0_1_n_n none (sideBySide x0) x1 (constant S512x1024 .f32 0x00000000#32) (ix2 r e)
      + broadcastTo S512x1024 x2 broadcasts_S1x1024_S512x1024 (ix2 r e) = _
  refine congrArg₂ (· + ·) ?_ ?_
  · refine (matmul_apply_rc (sideBySide x0) x1 r e).trans ?_
    refine Finset.sum_congr rfl fun d _ => ?_
    rw [sideBySide_apply]
  · refine broadcastTo_apply x2 broadcasts_S1x1024_S512x1024 (ix2 r e) (ix2 0 e) (fun a => ?_)
    match a with
    | ⟨0, _⟩ => show (0 : Nat) = if (1 : Nat) = 1 then 0 else _; rw [if_pos rfl]
    | ⟨1, _⟩ => show e.val = if (1024 : Nat) = 1 then 0 else e.val; rw [if_neg (by decide)]

/-- A block written at every (0, r, e) as a function of where (0, r, e) sits in the array is that function
    read through the block. -/
theorem block_eq_of_apply (x0 : Vec Ideal S1x16x512x64 .f32) (x1 : Vec Ideal S1024x1024 .bf16) (x2 : Vec Ideal S1x1024 .f32)
    (G : S2x2048x1024.Idx → EReal) (emb : S1x512x1024.Idx → S2x2048x1024.Idx)
    (h : ∀ (r : Fin 512) (e : Fin 1024), out2_3 (F := Ideal) x0 x1 x2 (ix3 0 r e) = G (emb (ix3 0 r e))) :
    out2_3 (F := Ideal) x0 x1 x2 = fun y => G (emb y) := by
  funext y
  obtain ⟨z, r, e, rfl⟩ : ∃ (z : Fin 1) (r : Fin 512) (e : Fin 1024), y = ix3 z r e := ⟨y 0, y 1, y 2, eq_ix3 y⟩
  obtain rfl : z = 0 := Subsingleton.elim _ _
  exact h r e

/-- The printed index maps, decided over the grid: the head-major input's block moves with the output's on the
    batch axis and on the row axis, the weight and the bias are fetched whole, and the output's block indices stay
    in their ranges. -/
theorem idx_facts : ∀ t : Fin cfg2.N,
    win2_0.index t (0 : Fin 4) = win2_3.index t (0 : Fin 3)
    ∧ win2_0.index t (1 : Fin 4) = 0
    ∧ win2_0.index t (2 : Fin 4) = win2_3.index t (1 : Fin 3)
    ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (2 : Fin 3) = 0
    ∧ win2_3.index t (0 : Fin 3) ≤ 1 ∧ win2_3.index t (1 : Fin 3) ≤ 3 :=
  (by decide +kernel : ∀ t : Fin grid2.N, _)

/-- Every block of the output is some point's. -/
theorem idx_onto : ∀ (q0 : Fin 2) (q1 : Fin 4), ∃ t : Fin cfg2.N, win2_3.index t = ![q0.val, q1.val, 0] :=
  (by decide +kernel : ∀ (q0 : Fin 2) (q1 : Fin 4), ∃ t : Fin grid2.N, win2_3.index t = ![q0.val, q1.val, 0])

/-- The head-major input's block at a point, read where the output's block sits: batch `b`, rows from
    512 times the row-block index. -/
theorem read_heads (c : Dev nD) (t : Fin cfg2.N) (h : Fin 16) (r : Fin 512) (j : Fin 64) (b : Fin 2) (l : Fin 2048)
    (hb : b.val = win2_3.index t (0 : Fin 3)) (hl : l.val = win2_3.index t (1 : Fin 3) * 512 + r.val) :
    iblk2 V c 0 t (ix4 0 h r j) = V c (Pipeline.arrRef spec2 0) (ix4 b h l j) := by
  obtain ⟨e0, e1, e2, e3, -⟩ := idx_facts t
  show V c (Pipeline.arrRef spec2 0) (((cfg2.win 0).blk t).view.emb (ix4 0 h r j)) = _
  refine congrArg _ (funext fun a => Fin.ext ?_)
  match a with
  | ⟨0, _⟩ => show win2_0.index t (0 : Fin 4) * 1 + 1 * 0 = b.val; omega
  | ⟨1, _⟩ => show win2_0.index t (1 : Fin 4) * 16 + 1 * h.val = h.val; omega
  | ⟨2, _⟩ => show win2_0.index t (2 : Fin 4) * 512 + 1 * r.val = l.val; omega
  | ⟨3, _⟩ => show win2_0.index t (3 : Fin 4) * 64 + 1 * j.val = j.val; omega

/-- The weight's block at every point is the weight. -/
theorem read_weight (c : Dev nD) (t : Fin cfg2.N) (d e : Fin 1024) :
    iblk2 V c 1 t (ix2 d e) = V c (Pipeline.arrRef spec2 1) (ix2 d e) := by
  obtain ⟨-, -, -, -, e0, e1, -⟩ := idx_facts t
  show V c (Pipeline.arrRef spec2 1) (((cfg2.win 1).blk t).view.emb (ix2 d e)) = _
  refine congrArg _ (funext fun a => Fin.ext ?_)
  match a with
  | ⟨0, _⟩ => show win2_1.index t (0 : Fin 2) * 1024 + 1 * d.val = d.val; omega
  | ⟨1, _⟩ => show win2_1.index t (1 : Fin 2) * 1024 + 1 * e.val = e.val; omega

/-- The bias row's block at every point is the bias row. -/
theorem read_bias (c : Dev nD) (t : Fin cfg2.N) (e : Fin 1024) :
    iblk2 V c 2 t (ix2 0 e) = V c (Pipeline.arrRef spec2 2) (ix2 0 e) := by
  obtain ⟨-, -, -, -, -, -, e0, e1, -⟩ := idx_facts t
  show V c (Pipeline.arrRef spec2 2) (((cfg2.win 2).blk t).view.emb (ix2 0 e)) = _
  refine congrArg _ (funext fun a => Fin.ext ?_)
  match a with
  | ⟨0, _⟩ => show win2_2.index t (0 : Fin 2) * 1 + 1 * 0 = 0; omega
  | ⟨1, _⟩ => show win2_2.index t (1 : Fin 2) * 1024 + 1 * e.val = e.val; omega

/-- Where the element (0, r, e) of a point's output block sits in the array: same column, row `r` of the
    point's row block, the point's batch. -/
theorem out_emb (t : Fin cfg2.N) (r : Fin 512) (e : Fin 1024) :
    ∃ (b : Fin 2) (l : Fin 2048), (((cfg2.win 3).blk t).view.emb (ix3 0 r e) : S2x2048x1024.Idx) = ix3 b l e
      ∧ b.val = win2_3.index t (0 : Fin 3) ∧ l.val = win2_3.index t (1 : Fin 3) * 512 + r.val := by
  obtain ⟨-, -, -, -, -, -, -, -, f2, f0, f1⟩ := idx_facts t
  have hr : r.val < 512 := r.isLt
  refine ⟨⟨win2_3.index t (0 : Fin 3), by omega⟩, ⟨win2_3.index t (1 : Fin 3) * 512 + r.val, by omega⟩, ?_, rfl, rfl⟩
  funext a
  apply Fin.ext
  match a with
  | ⟨0, _⟩ => show win2_3.index t (0 : Fin 3) * 1 + 1 * 0 = win2_3.index t (0 : Fin 3); omega
  | ⟨1, _⟩ => show win2_3.index t (1 : Fin 3) * 512 + 1 * r.val = win2_3.index t (1 : Fin 3) * 512 + r.val; omega
  | ⟨2, _⟩ => show win2_3.index t (2 : Fin 3) * 1024 + 1 * e.val = e.val; omega

open Cert.Spec (headOf laneOf) in
/-- The output projection at (b, l, e), spelt out. -/
theorem oproj_ix3 (A : Cert.Spec.SH.Idx → EReal) (W : Cert.Spec.SW.Idx → EReal) (B : Cert.Spec.SB.Idx → EReal)
    (b : Fin 2) (l : Fin 2048) (e : Fin 1024) :
    Cert.Spec.oproj A W B (ix3 b l e) = (∑ d : Fin 1024, A (ix4 b (headOf d) l (laneOf d)) * W (ix2 d e)) + B (ix2 0 e) := rfl

/-- What a point writes back is its block of the output projection of the arrays the region finds. -/
theorem flushed_eq (c : Dev nD) (t : Fin cfg2.N) :
    (dat2 (F := Ideal) V c).flushed 3 t = ((cfg2.win 3).blk t).view.read (Elt Ideal)
      (Cert.Spec.oproj (V c (Pipeline.arrRef spec2 0)) (V c (Pipeline.arrRef spec2 1)) (V c (Pipeline.arrRef spec2 2))) := by
  show (cfg2.win 3).cut (grid2.coords t) ((dat2 V c).after 3 t) = _
  rw [after2_3]
  refine (block_eq_of_apply (iblk2 V c 0 t) (iblk2 V c 1 t) (iblk2 V c 2 t)
    (Cert.Spec.oproj (V c (Pipeline.arrRef spec2 0)) (V c (Pipeline.arrRef spec2 1)) (V c (Pipeline.arrRef spec2 2)))
    (((cfg2.win 3).blk t).view.emb) ?_).trans rfl
  intro r e
  refine (out2_3_apply (iblk2 V c 0 t) (iblk2 V c 1 t) (iblk2 V c 2 t) r e).trans ?_
  obtain ⟨b, l, hE, hb, hl⟩ := out_emb t r e
  refine Eq.trans ?_ (congrArg (Cert.Spec.oproj (V c (Pipeline.arrRef spec2 0)) (V c (Pipeline.arrRef spec2 1)) (V c (Pipeline.arrRef spec2 2))) hE.symm)
  refine Eq.trans ?_ (oproj_ix3 (V c (Pipeline.arrRef spec2 0)) (V c (Pipeline.arrRef spec2 1)) (V c (Pipeline.arrRef spec2 2)) b l e).symm
  refine congrArg₂ (· + ·) (Finset.sum_congr rfl fun d _ => congrArg₂ (· * ·) ?_ ?_) ?_
  · exact read_heads V c t (Cert.Spec.headOf d) r (Cert.Spec.laneOf d) b l hb hl
  · exact read_weight V c t d e
  · exact read_bias V c t e

/-- An index of the output array is in a point's block iff each coordinate is in the block's range on its axis. -/
theorem mem_blk (t : Fin cfg2.N) (i : S2x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v10).slice (win2_3.rect t)).set ↔ _
  rw [View.set_slice_whole, Rect.mem_set_unit]
  exact Iff.rfl

/-- The blocks tile the output: row `l` of batch `b` is in the block of the point (b, l / 512). -/
theorem cover (i : S2x2048x1024.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- Region 2 leaves the output projection of the heads, laid side by side, in its output array. -/
theorem final2 (c : Dev nD) :
    (dat2 (F := Ideal) V c).arrAt 3 cfg2.N
      = Cert.Spec.oproj (V c (Pipeline.arrRef spec2 0)) (V c (Pipeline.arrRef spec2 1)) (V c (Pipeline.arrRef spec2 2)) :=
  (dat2 (F := Ideal) V c).arrAt_eq_of_cover 3 _ (fun t _ => flushed_eq V c t) cover

end Cert.KernelIdeal.OProj

end
-- ==== Proof.Whole.lean ====
/-
  The whole block as one function of the five argument arrays.

  The projection uses the middle third of the fused weight and bias: columns 1024 … 2047 of W_attn : [1024, 3072]
  and entries 1024 … 2047 of b_attn : [3072]. The output projection's bias b_proj : [1024] enters as a row.
  The result is the output projection of the attention of the projection with itself.
-/
import proofs.«108926_j1838246002767_2_alg».proof.Proof.Spec

noncomputable section

namespace Cert.Spec

open Idealize.ShloMosaic Idealize.ShloMosaic.ValueIdx

abbrev SW3 : Shape := ⟨2, ![1024, 3072]⟩
abbrev SB3 : Shape := ⟨1, ![3072]⟩
abbrev SB1 : Shape := ⟨1, ![1024]⟩

/-- Column 1024 + e of the fused axis: the middle third. -/
def mid (e : Fin 1024) : Fin 3072 := ⟨1024 + e.val, by omega⟩
theorem mid_val (e : Fin 1024) : (mid e).val = 1024 + e.val := rfl

/-- The middle third of the fused weight. -/
def wk (W : SW3.Idx → EReal) : SW.Idx → EReal := fun i => W (ix2 (i 0) (mid (i 1)))
/-- The middle third of the fused bias, as a row. -/
def bk (b : SB3.Idx → EReal) : SB.Idx → EReal := fun i => b (ix1 (mid (i 1)))
/-- A bias vector as a row. -/
def brow (b : SB1.Idx → EReal) : SB.Idx → EReal := fun i => b (ix1 (i 1))

/-- The block: project, attend, project out. -/
def whole (x : SX.Idx → EReal) (Wa : SW3.Idx → EReal) (ba : SB3.Idx → EReal) (Wp : SW.Idx → EReal) (bp : SB1.Idx → EReal) :
    SX.Idx → EReal :=
  oproj (split (attn (merge (kproj x (wk Wa) (bk ba))))) Wp (brow bp)

end Cert.Spec

end
-- ==== Proof.KernelValue.lean ====
/-
  What the idealized kernel's result buffer holds at the end, as a function of the argument arrays.

  The boundary contents are read back from the last one. The result buffer is the third region's output array:
  the output projection of its three operands. Its first operand is the second region's output array with its
  leading axis split in two; that array is the attention of the second region's operand, which is the first
  region's output array with its two leading axes merged; and that is the head-major projection of the input,
  of the middle third of the fused weight (sliced and re-formatted by the host before the first region) and of
  the middle third of the fused bias (sliced and reshaped to a row). The third region's weight is the output
  weight re-formatted by the host before the first region, carried unchanged across the first two regions, and
  its bias row is the output bias reshaped before the third region. A change of float format is the identity
  on the extended reals. Each region's output array is taken from a hypothesis stating it for any entry
  contents.
-/
import proofs.«108926_j1838246002767_2_alg».proof.Proof.Gen.KernelIdeal.Frame
import proofs.«108926_j1838246002767_2_alg».proof.Proof.Whole
import Idealize.ShloMosaic.Lib.StableHlo.Run
import Idealize.ShloMosaic.Lib.Pipeline.Value
import Idealize.ShloMosaic.Lib.ValueLayout

set_option maxRecDepth 16384

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen Cert.Spec

variable (m : (ℓ : Loc nD τ sig) → Buf (Elt Ideal) ℓ) (ρ : Dev nD → PrngReg)

/-! ## Before the first region -/

/-- The input is untouched by the host operations before the first region. -/
theorem entry_x (c : Dev nD) : W1 m ρ c (Proc.devRef .tc main_arg0) = m ((c : Thread nD τ).loc main_arg0) := by
  show StableHlo.after hostOps0 (W0 m ρ c) (Proc.devRef .tc main_arg0) = _
  after_results

/-- The first region's weight is the middle third of the fused weight. -/
theorem entry_w (c : Dev nD) :
    (W1 m ρ c (Proc.devRef .tc main_v2) : SW.Idx → EReal) = wk (m ((c : Thread nD τ).loc main_arg1)) := by
  show StableHlo.after hostOps0 (W0 m ρ c) (Proc.devRef .tc main_v2) = _
  after_results
  funext i
  show extractStridedSlice S1024x1024 ![0, 1024] (W0 m ρ c (Proc.devRef .tc main_arg1)) slices_S1024x3072_S1024x1024_0_1024 i = _
  exact extractStridedSlice_apply _ _ _ i (ix2 (i 0) (mid (i 1))) (fun a => by
    match a with
    | ⟨0, _⟩ => exact (Nat.zero_add _).symm
    | ⟨1, _⟩ => rfl)

/-- The first region's bias row is the middle third of the fused bias. -/
theorem entry_b (c : Dev nD) :
    (W1 m ρ c (Proc.devRef .tc main_v4) : SB.Idx → EReal) = bk (m ((c : Thread nD τ).loc main_arg2)) := by
  show StableHlo.after hostOps0 (W0 m ρ c) (Proc.devRef .tc main_v4) = _
  after_results
  show shapeCast S1x1024 (extractStridedSlice S1024 ![1024] (W0 m ρ c (Proc.devRef .tc main_arg2)) slices_S3072_S1024_1024) shapeCasts_S1024_S1x1024 = _
  funext i
  refine (shapeCast_apply _ _ i (ix1 (i 1)) ?_).trans ?_
  · rw [Shape.rowMajor_val_one, Shape.rowMajor_val_two]
    show (i 1).val = (i 0).val * 1024 + (i 1).val
    have h : (i 0).val < 1 := (i 0).isLt
    omega
  · exact extractStridedSlice_apply _ _ _ _ (ix1 (mid (i 1))) (fun a => by
      match a with
      | ⟨0, _⟩ => rfl)

/-- The output weight, re-formatted before the first region. -/
theorem entry_wp (c : Dev nD) :
    (W1 m ρ c (Proc.devRef .tc main_v3) : SW.Idx → EReal) = m ((c : Thread nD τ).loc main_arg3) := by
  show StableHlo.after hostOps0 (W0 m ρ c) (Proc.devRef .tc main_v3) = _
  after_results
  rfl

/-! ## Through the regions -/

section Regions

variable
  (h0 : ∀ (V : (c : Dev nD) → (b : Ref sig .tc) → Buf (Elt Ideal) ((c : Thread nD τ).loc b)) (c : Dev nD),
    (dat0 (F := Ideal) V c).arrAt 3 cfg0.N
      = kproj (V c (Pipeline.arrRef spec0 0)) (V c (Pipeline.arrRef spec0 1)) (V c (Pipeline.arrRef spec0 2)))
  (h1 : ∀ (V : (c : Dev nD) → (b : Ref sig .tc) → Buf (Elt Ideal) ((c : Thread nD τ).loc b)) (c : Dev nD),
    (dat1 (F := Ideal) V c).arrAt 1 cfg1.N = attn (V c (Pipeline.arrRef spec1 0)))
  (h2 : ∀ (V : (c : Dev nD) → (b : Ref sig .tc) → Buf (Elt Ideal) ((c : Thread nD τ).loc b)) (c : Dev nD),
    (dat2 (F := Ideal) V c).arrAt 3 cfg2.N
      = oproj (V c (Pipeline.arrRef spec2 0)) (V c (Pipeline.arrRef spec2 1)) (V c (Pipeline.arrRef spec2 2)))

include h0 in
/-- After the first region its output array is the head-major projection. -/
theorem after_region0 (c : Dev nD) :
    (W2 m ρ c (Proc.devRef .tc main_v5) : SH.Idx → EReal)
      = kproj (m ((c : Thread nD τ).loc main_arg0)) (wk (m ((c : Thread nD τ).loc main_arg1))) (bk (m ((c : Thread nD τ).loc main_arg2))) := by
  refine (W2_arr m ρ c 3).trans ((h0 (V1 m ρ) c).trans ?_)
  show kproj (W1 m ρ c (Proc.devRef .tc main_arg0)) (W1 m ρ c (Proc.devRef .tc main_v2)) (W1 m ρ c (Proc.devRef .tc main_v4)) = _
  rw [entry_x, entry_w, entry_b]

/-- The second region's operand is the first region's output with its two leading axes merged. -/
theorem entry_kv (c : Dev nD) :
    (W3 m ρ c (Proc.devRef .tc main_v6) : SG.Idx → EReal) = merge (W2 m ρ c (Proc.devRef .tc main_v5)) := by
  show StableHlo.after hostOps1 (W2 m ρ c) (Proc.devRef .tc main_v6) = _
  after_results
  show shapeCast S32x2048x64 (W2 m ρ c (Proc.devRef .tc main_v5)) shapeCasts_S2x16x2048x64_S32x2048x64 = _
  funext i
  have hi : (i 0).val < 32 := (i 0).isLt
  unfold merge
  refine shapeCast_apply _ _ i _ ?_
  show (S2x16x2048x64.rowMajor _).val = (S32x2048x64.rowMajor i).val
  rw [Shape.rowMajor_val_four, Shape.rowMajor_val_three]
  show (((i 0).val / 16 * 16 + (i 0).val % 16) * 2048 + (i 1).val) * 64 + (i 2).val = ((i 0).val * 2048 + (i 1).val) * 64 + (i 2).val
  omega

include h0 h1 in
/-- After the second region its output array is the attention of the merged projection. -/
theorem after_region1 (c : Dev nD) :
    (W4 m ρ c (Proc.devRef .tc main_v7) : SG.Idx → EReal)
      = attn (merge (kproj (m ((c : Thread nD τ).loc main_arg0)) (wk (m ((c : Thread nD τ).loc main_arg1))) (bk (m ((c : Thread nD τ).loc main_arg2))))) := by
  refine (W4_arr m ρ c 1).trans ((h1 (V3 m ρ) c).trans ?_)
  show attn (W3 m ρ c (Proc.devRef .tc main_v6)) = _
  rw [entry_kv, after_region0 m ρ h0]

/-- The third region's first operand is the second region's output with its leading axis split. -/
theorem entry_a (c : Dev nD) :
    (W5 m ρ c (Proc.devRef .tc main_v8) : SH.Idx → EReal) = split (W4 m ρ c (Proc.devRef .tc main_v7)) := by
  show StableHlo.after hostOps2 (W4 m ρ c) (Proc.devRef .tc main_v8) = _
  after_results
  show shapeCast S2x16x2048x64 (W4 m ρ c (Proc.devRef .tc main_v7)) shapeCasts_S32x2048x64_S2x16x2048x64 = _
  funext i
  unfold split
  refine shapeCast_apply _ _ i _ ?_
  show (S32x2048x64.rowMajor _).val = (S2x16x2048x64.rowMajor i).val
  rw [Shape.rowMajor_val_three, Shape.rowMajor_val_four]
  show ((16 * (i 0).val + (i 1).val) * 2048 + (i 2).val) * 64 + (i 3).val = (((i 0).val * 16 + (i 1).val) * 2048 + (i 2).val) * 64 + (i 3).val
  omega

/-- The third region's weight is the output weight, carried unchanged across the first two regions. -/
theorem entry_wp3 (c : Dev nD) :
    (W5 m ρ c (Proc.devRef .tc main_v3) : SW.Idx → EReal) = m ((c : Thread nD τ).loc main_arg3) := by
  have e5 : W5 m ρ c (Proc.devRef .tc main_v3) = W4 m ρ c (Proc.devRef .tc main_v3) := by
    show StableHlo.after hostOps2 (W4 m ρ c) (Proc.devRef .tc main_v3) = _
    after_results
  have e3 : W3 m ρ c (Proc.devRef .tc main_v3) = W2 m ρ c (Proc.devRef .tc main_v3) := by
    show StableHlo.after hostOps1 (W2 m ρ c) (Proc.devRef .tc main_v3) = _
    after_results
  rw [e5, W4_of_ne m ρ c main_v3 (by decide), e3, W2_of_ne m ρ c main_v3 (by decide)]
  exact entry_wp m ρ c

/-- The third region's bias row is the output bias. -/
theorem entry_bp (c : Dev nD) :
    (W5 m ρ c (Proc.devRef .tc main_v9) : SB.Idx → EReal) = brow (m ((c : Thread nD τ).loc main_arg4)) := by
  have e4 : W4 m ρ c (Proc.devRef .tc main_arg4) = m ((c : Thread nD τ).loc main_arg4) := by
    have e5 : W5 m ρ c (Proc.devRef .tc main_arg4) = W4 m ρ c (Proc.devRef .tc main_arg4) := by
      show StableHlo.after hostOps2 (W4 m ρ c) (Proc.devRef .tc main_arg4) = _
      after_results
    exact e5.symm.trans ((W6_of_ne m ρ c main_arg4 (by decide)).symm.trans (W6_main_arg4 m ρ c))
  show StableHlo.after hostOps2 (W4 m ρ c) (Proc.devRef .tc main_v9) = _
  after_results
  show shapeCast S1x1024 (W4 m ρ c (Proc.devRef .tc main_arg4)) shapeCasts_S1024_S1x1024 = _
  rw [e4]
  funext i
  unfold brow
  refine shapeCast_apply (s := S1024) (t := S1x1024) _ _ i (ix1 (i 1 : Fin 1024)) ?_
  show ((⟨1, ![1024]⟩ : Shape).rowMajor (ix1 (i 1 : Fin 1024))).val = ((⟨2, ![1, 1024]⟩ : Shape).rowMajor i).val
  rw [Shape.rowMajor_val_one, Shape.rowMajor_val_two]
  show (i 1).val = (i 0).val * 1024 + (i 1).val
  have h : (i 0).val < 1 := (i 0).isLt
  omega

include h0 h1 h2 in
/-- The result buffer at the end is the whole block's function of the argument arrays. -/
theorem result (c : Dev nD) :
    (W6 m ρ c (Proc.devRef .tc main_v10) : SX.Idx → EReal)
      = whole (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 3).trans ((h2 (V5 m ρ) c).trans ?_)
  show oproj (W5 m ρ c (Proc.devRef .tc main_v8)) (W5 m ρ c (Proc.devRef .tc main_v3)) (W5 m ρ c (Proc.devRef .tc main_v9)) = _
  rw [entry_a, after_region1 m ρ h0 h1, entry_wp3, entry_bp]
  rfl

end Regions

end Cert.KernelIdeal.KernelValue

end
-- ==== Proof.Consts.lean ====
/-
  The float words the two programs spell that the proof has to evaluate, as the extended reals they denote,
  and the one numeric law that joins the two sides: dividing by the square root of 64 is multiplying by 1/8,
  on every extended real (the infinities included).
-/
import Idealize.ShloMosaic.PureOps.Ideal

noncomputable section

namespace Cert.Consts

open Idealize.ShloMosaic

/-- The word 0x42800000 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The word 0x00000000 denotes 0. -/
theorem ofBits_zero : Ideal.ofBits .f32 0x00000000#32 = 0 := by
  simp [Ideal.ofBits, Ideal.ieee]

/-- The word 0xFF800000 denotes −∞. -/
theorem ofBits_negInf : Ideal.ofBits .f32 0xFF800000#32 = ⊥ := by
  simp [Ideal.ofBits, Ideal.ieee]

theorem sqrt_64 : Real.sqrt 64 = 8 := by
  rw [show (64 : ℝ) = 8 ^ 2 by norm_num, Real.sqrt_sq (by norm_num)]

/-- Dividing by √64 is multiplying by 1/8, on every extended real. -/
theorem div_sqrt_64 (s : EReal) :
    Ideal.div s (Ideal.sqrt (Ideal.ofBits .f32 0x42800000#32)) = s * Ideal.ofBits .f32 0x3E000000#32 := by
  rw [ofBits_64, Ideal.sqrt_coe, if_neg (by norm_num), sqrt_64, Ideal.div_coe (by norm_num : (8 : ℝ) ≠ 0), ofBits_eighth]

end Cert.Consts

end
-- ==== Proof.RefValue.lean ====
/-
  The idealized reference computes the whole block's function of its arguments.

  Read one operation at a time: the reference's head-major key array (matrix product with the fused weight,
  plus the fused bias, the middle third sliced out, reshaped into heads and the head axis moved forward) is the
  head-major projection; its scores divided by the square root of 64 are the scores scaled by 1/8; the maximum,
  the exponentials, the row sums and the quotient are the softmax's; the product with the keys is the attention;
  and moving the head axis back, merging the heads and the last matrix product plus bias are the output projection.
  The reference's maximum is folded from −∞ and then compared with −∞ once more, which changes nothing; its row
  sum starts from zero.
-/
import proofs.«108926_j1838246002767_2_alg».proof.Proof.Gen.ReferenceIdeal.Read
import proofs.«108926_j1838246002767_2_alg».proof.Proof.Whole
import proofs.«108926_j1838246002767_2_alg».proof.Proof.Consts
import Idealize.ShloMosaic.PureOps.Reduce
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Spec

variable (x0 : (⟨S2x2048x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The projection -/

/-- The reference's head-major key array is the head-major projection with the middle thirds. -/
theorem proj_eq : (val_main_v6 (F := Ideal) x0 x1 x2 : SH.Idx → EReal) = kproj x0 (wk x1) (bk x2) := by
  funext i
  have hb0 : (i 0).val < 2 := (i 0).isLt
  have hb1 : (i 1).val < 16 := (i 1).isLt
  have hb2 : (i 2).val < 2048 := (i 2).isLt
  have hb3 : (i 3).val < 64 := (i 3).isLt
  rw [val_main_v6_apply, val_main_v5_apply, val_main_v4_apply, val_main_v3_apply, val_main_v0_apply, val_main_v2_apply,
    val_main_v1_apply]
  have el : ∀ k : Fin 1024, lidx_main_v0 (idx_main_v4 (idx_main_v5 (idx_main_v6 i))) k = ix3 (i 0) (i 2) k :=
    fun k => funext fun a => Fin.ext (by
      match a with
      | ⟨0, _⟩ =>
        show ((((i 0).val * 2048 + (i 2).val) * 16 + (i 1).val) * 64 + (i 3).val) / 2097152 = (i 0).val
        omega
      | ⟨1, _⟩ =>
        show ((((i 0).val * 2048 + (i 2).val) * 16 + (i 1).val) * 64 + (i 3).val) / 1024 % 2048 = (i 2).val
        omega
      | ⟨2, _⟩ => rfl)
  have er : ∀ k : Fin 1024, ridx_main_v0 (idx_main_v4 (idx_main_v5 (idx_main_v6 i))) k = ix2 k (mid (col (i 1) (i 3))) :=
    fun k => funext fun a => Fin.ext (by
      match a with
      | ⟨0, _⟩ => rfl
      | ⟨1, _⟩ =>
        show 1024 + ((((i 0).val * 2048 + (i 2).val) * 16 + (i 1).val) * 64 + (i 3).val) % 1024 = 1024 + (64 * (i 1).val + (i 3).val)
        omega)
  have eb : idx_main_v1 (idx_main_v2 (idx_main_v4 (idx_main_v5 (idx_main_v6 i)))) = ix1 (mid (col (i 1) (i 3))) :=
    funext fun a => Fin.ext (by
      match a with
      | ⟨0, _⟩ =>
        show 1024 + ((((i 0).val * 2048 + (i 2).val) * 16 + (i 1).val) * 64 + (i 3).val) % 1024 = 1024 + (64 * (i 1).val + (i 3).val)
        omega)
  simp only [el, er, eb]
  rfl

/-! ## The attention -/

/-- Reading the merged array at a merged coordinate is reading the head-major array. -/
theorem merge_at (K : SH.Idx → EReal) (b : Fin 2) (h : Fin 16) (l : Fin 2048) (j : Fin 64) :
    merge K (ix3 (bh b h) l j) = K (ix4 b h l j) :=
  congrFun (split_merge K) (ix4 b h l j)

/-- The reference's scaled scores. -/
theorem score_eq (i : S2x16x2048x2048.Idx) :
    val_main_v10 (F := Ideal) x0 x1 x2 i
      = score (merge (val_main_v6 (F := Ideal) x0 x1 x2)) (bh (i 0) (i 1)) (i 2) (i 3) := by
  rw [val_main_v10_apply, val_main_v7_apply, val_main_v9_apply, val_main_v8_apply, val_main_cst_apply]
  show Ideal.div (∑ k : Fin 64, _) (Ideal.sqrt (Ideal.ofBits .f32 0x42800000#32)) = _
  rw [Cert.Consts.div_sqrt_64]
  unfold score
  refine congrArg (· * eighth) (Finset.sum_congr rfl fun d _ => ?_)
  have e1 : lidx_main_v7 i d = ix4 (i 0) (i 1) (i 2) d := funext fun a => by
    match a with
    | ⟨0, _⟩ => rfl
    | ⟨1, _⟩ => rfl
    | ⟨2, _⟩ => rfl
    | ⟨3, _⟩ => rfl
  have e2 : ridx_main_v7 i d = ix4 (i 0) (i 1) (i 3) d := funext fun a => by
    match a with
    | ⟨0, _⟩ => rfl
    | ⟨1, _⟩ => rfl
    | ⟨2, _⟩ => rfl
    | ⟨3, _⟩ => rfl
  exact congrArg₂ (· * ·) ((congrArg _ e1).trans (merge_at _ (i 0) (i 1) (i 2) d).symm)
    ((congrArg _ e2).trans (merge_at _ (i 0) (i 1) (i 3) d).symm)

/-- The reference's row maximum. -/
theorem rowMax_eq (j : S2x16x2048.Idx) :
    val_main_v13 (F := Ideal) x0 x1 x2 j
      = rowMax (merge (val_main_v6 (F := Ideal) x0 x1 x2)) (bh (j 0) (j 1)) (j 2) := by
  rw [val_main_v13_apply, val_main_v12_apply, val_main_cst_1_apply]
  have hred : S2x16x2048x2048.Reduces [3] S2x16x2048 := by decide
  have h11 : val_main_v11 (F := Ideal) x0 x1 x2 j
      = (Finset.univ : Finset (Fin 2048)).fold max negInf (fun k => val_main_v10 (F := Ideal) x0 x1 x2 (ix4 (j 0) (j 1) (j 2) k)) := by
    unfold val_main_v11
    rw [Host.reduce_eq_fold_single FloatOps.maximumf _ _ reducesTo_S2x16x2048x2048_S2x16x2048_d3 hred h_S_ j]
    refine congrArg (Finset.fold max _ · Finset.univ) (funext fun k => ?_)
    exact congrArg (val_main_v10 (F := Ideal) x0 x1 x2) (funext fun a => Fin.ext (by
      match a with
      | ⟨0, _⟩ => rfl
      | ⟨1, _⟩ => rfl
      | ⟨2, _⟩ => rfl
      | ⟨3, _⟩ => rfl))
  rw [h11]
  show max negInf _ = _
  rw [max_eq_right ((Finset.le_fold_max _).2 (Or.inl le_rfl))]
  unfold rowMax
  exact congrArg (Finset.fold max negInf · Finset.univ) (funext fun k => score_eq x0 x1 x2 (ix4 (j 0) (j 1) (j 2) k))

/-- The reference's shifted exponentials. -/
theorem expo_eq (i : S2x16x2048x2048.Idx) :
    val_main_v17 (F := Ideal) x0 x1 x2 i
      = expo (merge (val_main_v6 (F := Ideal) x0 x1 x2)) (bh (i 0) (i 1)) (i 2) (i 3) := by
  rw [val_main_v17_apply, val_main_v16_apply, val_main_v15_apply, val_main_v14_apply]
  show Ideal.exp (val_main_v10 (F := Ideal) x0 x1 x2 i - val_main_v13 (F := Ideal) x0 x1 x2 (idx_main_v14 (idx_main_v15 i))) = _
  rw [score_eq, rowMax_eq]
  rfl

/-- The reference's row sums. -/
theorem rowSum_eq (j : S2x16x2048.Idx) :
    val_main_v18 (F := Ideal) x0 x1 x2 j
      = rowSum (merge (val_main_v6 (F := Ideal) x0 x1 x2)) (bh (j 0) (j 1)) (j 2) := by
  rw [val_main_v18_apply, val_main_cst_2_apply]
  show Ideal.ofBits .f32 0x00000000#32 + _ = _
  rw [Cert.Consts.ofBits_zero, zero_add]
  unfold rowSum
  exact Finset.sum_congr rfl fun k _ => expo_eq x0 x1 x2 (idx_main_v18 j k)

/-- The reference's attention output is the attention of its merged key array, split back into heads. -/
theorem attn_eq :
    (val_main_v22 (F := Ideal) x0 x1 x2 : SH.Idx → EReal) = split (attn (merge (val_main_v6 (F := Ideal) x0 x1 x2))) := by
  funext i
  rw [val_main_v22_apply]
  unfold split attn
  refine Finset.sum_congr rfl fun k _ => ?_
  rw [val_main_v21_apply, val_main_v20_apply, val_main_v19_apply]
  show Ideal.div (val_main_v17 (F := Ideal) x0 x1 x2 (lidx_main_v22 i k))
      (val_main_v18 (F := Ideal) x0 x1 x2 (idx_main_v19 (idx_main_v20 (lidx_main_v22 i k)))) * _ = _
  rw [expo_eq, rowSum_eq]
  have e : ridx_main_v22 i k = ix4 (i 0) (i 1) k (i 3) := funext fun a => by
    match a with
    | ⟨0, _⟩ => rfl
    | ⟨1, _⟩ => rfl
    | ⟨2, _⟩ => rfl
    | ⟨3, _⟩ => rfl
  rw [e]
  exact congrArg (_ * ·) (merge_at _ (i 0) (i 1) k (i 3)).symm

/-! ## The output projection -/

/-- The reference's result is the output projection of its attention output. -/
theorem out_eq :
    (val_main_v28 (F := Ideal) x0 x1 x2 x3 x4 : SX.Idx → EReal) = oproj (val_main_v22 (F := Ideal) x0 x1 x2) x3 (brow x4) := by
  funext i
  have hb0 : (i 0).val < 2 := (i 0).isLt
  have hb1 : (i 1).val < 2048 := (i 1).isLt
  have hb2 : (i 2).val < 1024 := (i 2).isLt
  rw [val_main_v28_apply, val_main_v25_apply, val_main_v27_apply, val_main_v26_apply]
  show (∑ k : Fin 1024, _) + _ = _
  unfold oproj brow
  refine congrArg₂ (· + ·) (Finset.sum_congr rfl fun k _ => ?_) ?_
  · have hk : k.val < 1024 := k.isLt
    rw [val_main_v24_apply, val_main_v23_apply]
    have e : idx_main_v23 (idx_main_v24 (lidx_main_v25 i k)) = ix4 (i 0) (headOf k) (i 1) (laneOf k) :=
      funext fun a => Fin.ext (by
        match a with
        | ⟨0, _⟩ =>
          show (((i 0).val * 2048 + (i 1).val) * 1024 + k.val) / 2097152 = (i 0).val
          omega
        | ⟨1, _⟩ =>
          show (((i 0).val * 2048 + (i 1).val) * 1024 + k.val) / 64 % 16 = k.val / 64
          omega
        | ⟨2, _⟩ =>
          show (((i 0).val * 2048 + (i 1).val) * 1024 + k.val) / 1024 % 2048 = (i 1).val
          omega
        | ⟨3, _⟩ =>
          show (((i 0).val * 2048 + (i 1).val) * 1024 + k.val) % 64 = k.val % 64
          omega)
    have er : ridx_main_v25 i k = ix2 k (i 2) := funext fun a => by
      match a with
      | ⟨0, _⟩ => rfl
      | ⟨1, _⟩ => rfl
    rw [e, er]
    rfl
  · exact congrArg x4 (funext fun a => by
      match a with
      | ⟨0, _⟩ => rfl)

/-! ## The whole -/

/-- The reference's result is the whole block's function of its arguments. -/
theorem ref_eq : (val_main_v28 (F := Ideal) x0 x1 x2 x3 x4 : SX.Idx → EReal) = whole x0 x1 x2 x3 x4 := by
  rw [out_eq, attn_eq, proj_eq]
  rfl

end Cert.ReferenceIdeal.RefValue

end
-- ==== Proof.lean ====
/-
  The kernel and its reference compute one function of their five arguments, on the extended reals.

  The kernel is three regions among host reshapes: a projection of the input by the middle third of the fused
  weight and bias, written head-major; softmax attention of that projection with itself (queries, keys and values
  are all the one projection), the scores scaled by 1/8; and the output projection of the heads laid side by side.
  The reference does the same with whole-array operations: a matrix product with the whole fused weight and a
  slice, a division of the scores by the square root of 64, jnp's softmax, and transposes where the kernel
  writes head-major directly.

  Each region's output array is read back from its blocks (Proof/KProj.lean, Proof/Attn.lean, Proof/OProj.lean)
  against the specification (Proof/Spec.lean); the buffers between the regions are read back through the host
  reshapes (Proof/KernelValue.lean) over the run that names the result buffer (Proof/ValueRun.lean); the reference's
  operations are read one at a time (Proof/RefValue.lean). The laws that join the two sides are that a sum may be
  taken in any order or tiling, that dividing by the square root of 64 is multiplying by 1/8 on every extended
  real (Proof/Consts.lean), that a maximum folded from −∞ is unchanged by one more comparison with −∞, and that a
  change of float format is the identity. None of them needs the inputs to be finite, so the precondition is
  never opened. The three frames are the generated ones, and the idealization rewrote nothing.
-/
import proofs.«108926_j1838246002767_2_alg».proof.Defs
import proofs.«108926_j1838246002767_2_alg».proof.Proof.Gen.Kernel
import proofs.«108926_j1838246002767_2_alg».proof.Proof.Gen.Kernel.Skeleton
import proofs.«108926_j1838246002767_2_alg».proof.Proof.Gen.Kernel.Launch
import proofs.«108926_j1838246002767_2_alg».proof.Proof.Gen.Kernel.Points
import proofs.«108926_j1838246002767_2_alg».proof.Proof.Gen.Kernel.Frame
import proofs.«108926_j1838246002767_2_alg».proof.Proof.Gen.KernelIdeal
import proofs.«108926_j1838246002767_2_alg».proof.Proof.Gen.KernelIdeal.Skeleton
import proofs.«108926_j1838246002767_2_alg».proof.Proof.Gen.KernelIdeal.Launch
import proofs.«108926_j1838246002767_2_alg».proof.Proof.Gen.KernelIdeal.Points
import proofs.«108926_j1838246002767_2_alg».proof.Proof.Gen.KernelIdeal.Frame
import proofs.«108926_j1838246002767_2_alg».proof.Proof.Gen.ReferenceIdeal
import proofs.«108926_j1838246002767_2_alg».proof.Proof.Gen.ReferenceIdeal.Run
import proofs.«108926_j1838246002767_2_alg».proof.Proof.Gen.ReferenceIdeal.Read
import proofs.«108926_j1838246002767_2_alg».proof.Proof.Gen.Pre_finite_inputs
import proofs.«108926_j1838246002767_2_alg».proof.Proof.ValueRun
import proofs.«108926_j1838246002767_2_alg».proof.Proof.KProj
import proofs.«108926_j1838246002767_2_alg».proof.Proof.Attn
import proofs.«108926_j1838246002767_2_alg».proof.Proof.OProj
import proofs.«108926_j1838246002767_2_alg».proof.Proof.KernelValue
import proofs.«108926_j1838246002767_2_alg».proof.Proof.RefValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the whole block's function of the
    arguments in their result buffers. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.result m ρ Cert.KernelIdeal.KProj.final0
        Cert.KernelIdeal.Attn.final1 Cert.KernelIdeal.OProj.final2 c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v28_eq, Cert.ReferenceIdeal.RefValue.ref_eq,
      (hagree c).1, (hagree c).2.1, (hagree c).2.2.1, (hagree c).2.2.2.1, (hagree c).2.2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
